-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024 .f32) (main_arg12 : FVec F S1024 .f32) (main_arg13 : FVec F S1024 .f32) (main_arg14 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024 .f32) (main_arg12 : FVec F S1024 .f32) (main_arg13 : FVec F S1024 .f32) (main_arg14 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 23
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S1024x4096, .f32⟩
  | .hbm, ⟨18, _⟩ => ⟨S1024x4096, .bf16⟩
  | .hbm, ⟨19, _⟩ => ⟨S4096, .f32⟩
  | .hbm, ⟨20, _⟩ => ⟨S1x4096, .f32⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .f32⟩
  | .hbm, ⟨17, _⟩ => ⟨S4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_cst_5 : Ref sig .tc := ⟨.hbm, 48, rfl⟩
abbrev main_cst_6 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v22 : Ref sig .tc := ⟨.hbm, 55, rfl⟩
abbrev main_cst_7 : Ref sig .tc := ⟨.hbm, 56, rfl⟩
abbrev main_v23 : Ref sig .tc := ⟨.hbm, 57, rfl⟩
abbrev main_v24 : Ref sig .tc := ⟨.hbm, 58, rfl⟩
abbrev main_cst_8 : Ref sig .tc := ⟨.hbm, 59, rfl⟩
abbrev main_v25 : Ref sig .tc := ⟨.hbm, 60, rfl⟩
abbrev main_v26 : Ref sig .tc := ⟨.hbm, 61, rfl⟩
abbrev main_cst_9 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.CellRunBits.lean ====
/-
  The run of the LSTM-cell program `Kernel` up to and through its one kernel region, at any float instance.

  @main first builds three arrays on the host — the four input-projection matrices side by side (a 1024 × 4096
  matrix, then narrowed in format), the four recurrent matrices likewise, and the four bias vectors end to end as one
  row — and then launches the kernel on a grid of 16 points. Point `t` is handed rows 256·t … 256·t + 255 of `x`, `h0`
  and `c0` (three moving windows), the two 1024 × 4096 matrices and the bias row whole (three windows that never move),
  and two 256 × 1024 output tiles. The body reads its six inputs whole, computes, and overwrites each output tile whole;
  it also reads the output tiles before overwriting them, and discards what it read.

  Here: the contents of every buffer when the region is entered (`entry`), that the fifteen argument arrays are
  untouched by the host prefix, the tile each window shows at a point (`tile`), what the body leaves in the two output
  tiles as a function of the six input tiles (`hiddenTile`, `cellTile`), the body's Hoare triple, the per-point
  obligation of the launch, the run of the whole program (`region_run`) with every array named afterwards, and from it
  the frame: the program terminates without fault and its fifteen arguments end as they began.
-/
import proofs.«179745_j40956808135044_2_alg».proof.Proof.Gen.Kernel.Launch
import proofs.«179745_j40956808135044_2_alg».proof.Proof.Gen.Kernel.Skeleton
import proofs.«179745_j40956808135044_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch memory after the six host operations (three
    concatenations, two format changes, one reshape). -/
abbrev entry (c : Dev nD) (b : Ref sig .tc) : Buf (Elt F) ((c : Thread nD τ).loc b) := StableHlo.after hostOps0 (fun b => m (c, b)) b

/-- No host operation allocates. -/
theorem prefix_allocates_nothing : (hostOps0 : List (HloOp τ sig (Elt F))).Forall fun op => op.fresh = ∅ := by
  simp only [List.Forall]; repeat' constructor

/-- @main is its host prefix followed by the region, and the region is entered at `entry`. -/
theorem reaches_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_allocates_nothing main_chain

/-- The host prefix writes only its six results: any other buffer is entered as launched. -/
theorem entry_untouched (c : Dev nD) (b : Ref sig .tc) (h0 : b ≠ main_v0) (h1 : b ≠ main_v1) (h2 : b ≠ main_v2) (h3 : b ≠ main_v3)
    (h4 : b ≠ main_v4) (h5 : b ≠ main_v5) : entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-! ## The windows' tiles -/

/-- The tile window `w` shows at point `t`: its block of the window's array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Window 0 is only read by the body: whatever point the body is at, fetched there or kept from the point before
    (its block index unmoved), the staging buffer it is handed holds the window's tile. -/
theorem tile_found0 {c : Dev nD} (dat : Dat τ (Elt F) Unit ℕ (UR sig nD τ) ℕ cfg0 c) (hA : dat.A 0 = entry m c (Pipeline.arrRef spec0 0))
    (hkeep : ∀ t, dat.after 0 t = tile m c 0 t) (t : Fin cfg0.N) (d) : dat.before 0 t d = tile m c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)
/-- Window 1 is only read by the body: whatever point the body is at, fetched there or kept from the point before
    (its block index unmoved), the staging buffer it is handed holds the window's tile. -/
theorem tile_found1 {c : Dev nD} (dat : Dat τ (Elt F) Unit ℕ (UR sig nD τ) ℕ cfg0 c) (hA : dat.A 1 = entry m c (Pipeline.arrRef spec0 1))
    (hkeep : ∀ t, dat.after 1 t = tile m c 1 t) (t : Fin cfg0.N) (d) : dat.before 1 t d = tile m c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)
/-- Window 2 is only read by the body: whatever point the body is at, fetched there or kept from the point before
    (its block index unmoved), the staging buffer it is handed holds the window's tile. -/
theorem tile_found2 {c : Dev nD} (dat : Dat τ (Elt F) Unit ℕ (UR sig nD τ) ℕ cfg0 c) (hA : dat.A 2 = entry m c (Pipeline.arrRef spec0 2))
    (hkeep : ∀ t, dat.after 2 t = tile m c 2 t) (t : Fin cfg0.N) (d) : dat.before 2 t d = tile m c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)
/-- Window 3 is only read by the body: whatever point the body is at, fetched there or kept from the point before
    (its block index unmoved), the staging buffer it is handed holds the window's tile. -/
theorem tile_found3 {c : Dev nD} (dat : Dat τ (Elt F) Unit ℕ (UR sig nD τ) ℕ cfg0 c) (hA : dat.A 3 = entry m c (Pipeline.arrRef spec0 3))
    (hkeep : ∀ t, dat.after 3 t = tile m c 3 t) (t : Fin cfg0.N) (d) : dat.before 3 t d = tile m c 3 t :=
  (dat.before_in_eq_fetched 3 rfl (fun _ => rfl) (fun _ _ _ => rfl) (fun t => by rw [hkeep]; unfold Dat.blockOf tile; rw [hA]; try rfl) t d).trans
    (by unfold Dat.fetched Dat.blockOf tile; rw [hA]; try rfl)
/-- Window 4 is only read by the body: whatever point the body is at, fetched there or kept from the point before
    (its block index unmoved), the staging buffer it is handed holds the window's tile. -/
theorem tile_found4 {c : Dev nD} (dat : Dat τ (Elt F) Unit ℕ (UR sig nD τ) ℕ cfg0 c) (hA : dat.A 4 = entry m c (Pipeline.arrRef spec0 4))
    (hkeep : ∀ t, dat.after 4 t = tile m c 4 t) (t : Fin cfg0.N) (d) : dat.before 4 t d = tile m c 4 t :=
  (dat.before_in_eq_fetched 4 rfl (fun _ => rfl) (fun _ _ _ => rfl) (fun t => by rw [hkeep]; unfold Dat.blockOf tile; rw [hA]; try rfl) t d).trans
    (by unfold Dat.fetched Dat.blockOf tile; rw [hA]; try rfl)
/-- Window 5 is only read by the body: whatever point the body is at, fetched there or kept from the point before
    (its block index unmoved), the staging buffer it is handed holds the window's tile. -/
theorem tile_found5 {c : Dev nD} (dat : Dat τ (Elt F) Unit ℕ (UR sig nD τ) ℕ cfg0 c) (hA : dat.A 5 = entry m c (Pipeline.arrRef spec0 5))
    (hkeep : ∀ t, dat.after 5 t = tile m c 5 t) (t : Fin cfg0.N) (d) : dat.before 5 t d = tile m c 5 t :=
  (dat.before_in_eq_fetched 5 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the two output tiles -/

abbrev rows : Rect S256x1024 := Rect.unit (s := S256x1024) ![0, 0] S256x1024.size inb_S256x1024_S256x1024_0_0
abbrev mat : Rect S1024x4096 := Rect.unit (s := S1024x4096) ![0, 0] S1024x4096.size inb_S1024x4096_S1024x4096_0_0
abbrev biasRow : Rect S1x4096 := Rect.unit (s := S1x4096) ![0, 0] S1x4096.size inb_S1x4096_S1x4096_0_0

/-- The new cell state of 256 rows, from the six input tiles: forget gate × old cell state + input gate × tanh of the
    candidate, each gate a quarter of the one pre-activation `x·W + h0·U + b` (the skeleton's payload, stored whole). -/
def cellTile (x h0 c0 : Vec F S256x1024 .f32) (W U : Vec F S1024x4096 .bf16) (b : Vec F S1x4096 .f32) : Vec F S256x1024 .f32 :=
  View.canon [⟨rows, k0_pay1 (View.ld c0 rows)
    (k0_pay5 (View.ld x rows) (View.ld h0 rows) (View.ld W mat) (View.ld U mat) (View.ld b biasRow))
    (k0_pay6 (View.ld x rows) (View.ld h0 rows) (View.ld W mat) (View.ld U mat) (View.ld b biasRow))
    (k0_pay7 (View.ld x rows) (View.ld h0 rows) (View.ld W mat) (View.ld U mat) (View.ld b biasRow))⟩]

/-- The new hidden state of 256 rows: output gate × tanh of the new cell state. -/
def hiddenTile (x h0 c0 : Vec F S256x1024 .f32) (W U : Vec F S1024x4096 .bf16) (b : Vec F S1x4096 .f32) : Vec F S256x1024 .f32 :=
  View.canon [⟨rows, k0_pay2 (View.ld c0 rows)
    (k0_pay4 (View.ld x rows) (View.ld h0 rows) (View.ld W mat) (View.ld U mat) (View.ld b biasRow))
    (k0_pay5 (View.ld x rows) (View.ld h0 rows) (View.ld W mat) (View.ld U mat) (View.ld b biasRow))
    (k0_pay6 (View.ld x rows) (View.ld h0 rows) (View.ld W mat) (View.ld U mat) (View.ld b biasRow))
    (k0_pay7 (View.ld x rows) (View.ld h0 rows) (View.ld W mat) (View.ld U mat) (View.ld b biasRow))
    (Scalar.ofBits .f32 0x3E4CCCCD#32)⟩]

/-- One store through the whole-tile rectangle covers the tile. -/
theorem whole_store_covers (p : Vec F S256x1024 .f32) (y : S256x1024.Idx) :
    ∃ pc ∈ ([⟨rows, p⟩] : List (View.Piece (Elt F) S256x1024 .f32)), y ∈ pc.1.set :=
  View.cover_of_tiled [⟨rows, p⟩] S256x1024.size (by rfl) y

/-! ## The body's triple -/

set_option maxHeartbeats 1000000 in
/-- The body, on whole staging buffers holding the six input tiles and anything at all in the two output buffers, runs
    without fault and returns the inputs as they were, the hidden-state buffer at `hiddenTile` and the cell-state buffer
    at `cellTile` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h0 c0 : Vec F S256x1024 .f32) (W U : Vec F S1024x4096 .bf16) (b : Vec F S1x4096 .f32) (K : PUnit → sProp 𝕄) :
    iprop(owns (c : Thread nD τ) arg1 fullShare x ∗ owns (c : Thread nD τ) arg2 fullShare h0 ∗ owns (c : Thread nD τ) arg3 fullShare c0
        ∗ owns (c : Thread nD τ) arg4 fullShare W ∗ owns (c : Thread nD τ) arg5 fullShare U ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h0 ∗ owns (c : Thread nD τ) arg3 fullShare c0
            ∗ owns (c : Thread nD τ) arg4 fullShare W ∗ owns (c : Thread nD τ) arg5 fullShare U ∗ owns (c : Thread nD τ) arg6 fullShare b
            ∗ owns (c : Thread nD τ) arg7 fullShare (hiddenTile x h0 c0 W U b) ∗ owns (c : Thread nD τ) arg8 fullShare (cellTile x h0 c0 W U b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (whole_store_covers _)
  iexists _; isplitr
  swap; · iexact H8
  ipureintro
  try dsimp only
  exact View.read_writes_eq_canon _ _ _ (whole_store_covers _)

/-! ## The launch's proof data -/

/-- Per core: the arrays as the region finds them; after the body at point `t` each input buffer still at its tile and
    the two output buffers at the new hidden and cell rows of the six input tiles; no scratch, nothing owed, full shares. -/
def ledger (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => hiddenTile (tile m c 0 t) (tile m c 1 t) (tile m c 2 t) (tile m c 3 t) (tile m c 4 t) (tile m c 5 t)
    | ⟨7, _⟩ => cellTile (tile m c 0 t) (tile m c 1 t) (tile m c 2 t) (tile m c 3 t) (tile m c 4 t) (tile m c 5 t)
  Φ _ := Pipeline.ΦA spec0 c
  q _ := fullShare
  owed _ := 0

theorem ledger_arrays (c : Dev nD) (w : Fin cfg0.W) : (ledger m 0 c).A w = entry m c (Pipeline.arrRef spec0 w) := by
  dsimp only [ledger]

theorem left0 (c : Dev nD) (t : Fin cfg0.N) : (ledger m 0 c).after 0 t = tile m c 0 t := by dsimp only [ledger]
theorem left1 (c : Dev nD) (t : Fin cfg0.N) : (ledger m 0 c).after 1 t = tile m c 1 t := by dsimp only [ledger]
theorem left2 (c : Dev nD) (t : Fin cfg0.N) : (ledger m 0 c).after 2 t = tile m c 2 t := by dsimp only [ledger]
theorem left3 (c : Dev nD) (t : Fin cfg0.N) : (ledger m 0 c).after 3 t = tile m c 3 t := by dsimp only [ledger]
theorem left4 (c : Dev nD) (t : Fin cfg0.N) : (ledger m 0 c).after 4 t = tile m c 4 t := by dsimp only [ledger]
theorem left5 (c : Dev nD) (t : Fin cfg0.N) : (ledger m 0 c).after 5 t = tile m c 5 t := by dsimp only [ledger]
theorem left6 (c : Dev nD) (t : Fin cfg0.N) : (ledger m 0 c).after 6 t
    = hiddenTile (tile m c 0 t) (tile m c 1 t) (tile m c 2 t) (tile m c 3 t) (tile m c 4 t) (tile m c 5 t) := by dsimp only [ledger]
theorem left7 (c : Dev nD) (t : Fin cfg0.N) : (ledger m 0 c).after 7 t
    = cellTile (tile m c 0 t) (tile m c 1 t) (tile m c 2 t) (tile m c 3 t) (tile m c 4 t) (tile m c 5 t) := by dsimp only [ledger]

theorem found0 (c : Dev nD) (t : Fin cfg0.N) (d) : (ledger m 0 c).before 0 t d = tile m c 0 t :=
  tile_found0 m (ledger m 0 c) (ledger_arrays m c 0) (left0 m c) t d
theorem found1 (c : Dev nD) (t : Fin cfg0.N) (d) : (ledger m 0 c).before 1 t d = tile m c 1 t :=
  tile_found1 m (ledger m 0 c) (ledger_arrays m c 1) (left1 m c) t d
theorem found2 (c : Dev nD) (t : Fin cfg0.N) (d) : (ledger m 0 c).before 2 t d = tile m c 2 t :=
  tile_found2 m (ledger m 0 c) (ledger_arrays m c 2) (left2 m c) t d
theorem found3 (c : Dev nD) (t : Fin cfg0.N) (d) : (ledger m 0 c).before 3 t d = tile m c 3 t :=
  tile_found3 m (ledger m 0 c) (ledger_arrays m c 3) (left3 m c) t d
theorem found4 (c : Dev nD) (t : Fin cfg0.N) (d) : (ledger m 0 c).before 4 t d = tile m c 4 t :=
  tile_found4 m (ledger m 0 c) (ledger_arrays m c 4) (left4 m c) t d
theorem found5 (c : Dev nD) (t : Fin cfg0.N) (d) : (ledger m 0 c).before 5 t d = tile m c 5 t :=
  tile_found5 m (ledger m 0 c) (ledger_arrays m c 5) (left5 m c) t d

/-! ## The body at a point of the grid -/

/-- What the launch hands the body at point `t`, the eight windows one by one, -/
def handed (c : Dev nD) (t : Fin cfg0.N) : sProp 𝕄 :=
  iprop((ledger m 0 c).Φ t.castSucc ∗ (ledger m 0 c).owesAt () t.castSucc
    ∗ (∃ d, owns (c : Thread nD τ) (st0_0 t) fullShare ((ledger m 0 c).before 0 t d))
    ∗ (∃ d, owns (c : Thread nD τ) (st0_1 t) fullShare ((ledger m 0 c).before 1 t d))
    ∗ (∃ d, owns (c : Thread nD τ) (st0_2 t) fullShare ((ledger m 0 c).before 2 t d))
    ∗ (∃ d, owns (c : Thread nD τ) (st0_3 t) fullShare ((ledger m 0 c).before 3 t d))
    ∗ (∃ d, owns (c : Thread nD τ) (st0_4 t) fullShare ((ledger m 0 c).before 4 t d))
    ∗ (∃ d, owns (c : Thread nD τ) (st0_5 t) fullShare ((ledger m 0 c).before 5 t d))
    ∗ (∃ d, owns (c : Thread nD τ) (st0_6 t) fullShare ((ledger m 0 c).before 6 t d))
    ∗ (∃ d, owns (c : Thread nD τ) (st0_7 t) fullShare ((ledger m 0 c).before 7 t d)))

/-- and what the body hands back. -/
def returned (c : Dev nD) (t : Fin cfg0.N) : sProp 𝕄 :=
  iprop((ledger m 0 c).Φ t.succ ∗ (ledger m 0 c).owesAt () t.succ
    ∗ owns (c : Thread nD τ) (st0_0 t) fullShare ((ledger m 0 c).after 0 t)
    ∗ owns (c : Thread nD τ) (st0_1 t) fullShare ((ledger m 0 c).after 1 t)
    ∗ owns (c : Thread nD τ) (st0_2 t) fullShare ((ledger m 0 c).after 2 t)
    ∗ owns (c : Thread nD τ) (st0_3 t) fullShare ((ledger m 0 c).after 3 t)
    ∗ owns (c : Thread nD τ) (st0_4 t) fullShare ((ledger m 0 c).after 4 t)
    ∗ owns (c : Thread nD τ) (st0_5 t) fullShare ((ledger m 0 c).after 5 t)
    ∗ owns (c : Thread nD τ) (st0_6 t) fullShare ((ledger m 0 c).after 6 t)
    ∗ owns (c : Thread nD τ) (st0_7 t) fullShare ((ledger m 0 c).after 7 t))

/-- At any point the six input buffers hold their tiles, so the body's triple applies; the invariant and the core's
    debts pass through unread. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [found0, found1, found2, found3, found4, found5]
  rw [show (ledger m 0 c).Φ t.succ = (ledger m 0 c).Φ t.castSucc from rfl,
    show (ledger m 0 c).owesAt () t.succ = (ledger m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_everywhere (c : Dev nD) : BodyObligation (ledger (F := F) m 0 c) (defs₀ (F := F)) Variants.none () Set.univ := fun t => by
  rw [bigSep_W0, bigSep_W0]
  exact body_at_point m c t

/-! ## The run, and the frame -/

set_option backward.isDefEq.respectTransparency.types false in
/-- From any memory with zero counters, every weakly fair execution of @main terminates without fault, every window's
    array ending at what the launch's write-backs of `ledger` leave in it and every other unscoped buffer as the region
    found it. -/
theorem region_run : θ_run defs (onTc (τ := τ) (main (F := F))) (s₀ m ρ) (Pipeline.FramePost cfgs (ledger m) 0 (entry m)) :=
  Pipeline.θ_run_frame cfgs (ledger m) (0 : Fin 1) launch0 defs₀ Variants.none m ρ main
    (hbody := fun c => (body_everywhere m c).loose) (hshare := fun c => (ledger m 0 c).share_full fun _ => rfl)
    (howed := fun _ _ => rfl) (V := entry m) (hmain := reaches_region m Variants.none) (hA := ledger_arrays m) (hΦ := fun _ _ => rfl)

/-- Read off the run's post: the fifteen argument arrays are as they began — `x`, `h0`, `c0` are input windows' arrays
    (never written back), the twelve others no window's array, and none is written by the host prefix. -/
theorem arguments_kept (r : PUnit × MemSt nD τ sig (Elt F)) (h : Pipeline.FramePost cfgs (ledger m) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((ledger m 0 c).arrAt_in 0 rfl _).trans ((ledger_arrays m c 0).trans
        (entry_untouched m c main_arg0 (by decide) (by decide) (by decide) (by decide) (by decide) (by decide)))),
      ((h c).1 2).trans (((ledger m 0 c).arrAt_in 2 rfl _).trans ((ledger_arrays m c 2).trans
        (entry_untouched m c main_arg1 (by decide) (by decide) (by decide) (by decide) (by decide) (by decide)))),
      ((h c).1 1).trans (((ledger m 0 c).arrAt_in 1 rfl _).trans ((ledger_arrays m c 1).trans
        (entry_untouched m c main_arg2 (by decide) (by decide) (by decide) (by decide) (by decide) (by decide)))),
      ((h c).2 main_arg3 (Pipeline.mem_restRefs_of main_arg3 (by decide) (by decide))).trans
        (entry_untouched m c main_arg3 (by decide) (by decide) (by decide) (by decide) (by decide) (by decide)),
      ((h c).2 main_arg4 (Pipeline.mem_restRefs_of main_arg4 (by decide) (by decide))).trans
        (entry_untouched m c main_arg4 (by decide) (by decide) (by decide) (by decide) (by decide) (by decide)),
      ((h c).2 main_arg5 (Pipeline.mem_restRefs_of main_arg5 (by decide) (by decide))).trans
        (entry_untouched m c main_arg5 (by decide) (by decide) (by decide) (by decide) (by decide) (by decide)),
      ((h c).2 main_arg6 (Pipeline.mem_restRefs_of main_arg6 (by decide) (by decide))).trans
        (entry_untouched m c main_arg6 (by decide) (by decide) (by decide) (by decide) (by decide) (by decide)),
      ((h c).2 main_arg7 (Pipeline.mem_restRefs_of main_arg7 (by decide) (by decide))).trans
        (entry_untouched m c main_arg7 (by decide) (by decide) (by decide) (by decide) (by decide) (by decide)),
      ((h c).2 main_arg8 (Pipeline.mem_restRefs_of main_arg8 (by decide) (by decide))).trans
        (entry_untouched m c main_arg8 (by decide) (by decide) (by decide) (by decide) (by decide) (by decide)),
      ((h c).2 main_arg9 (Pipeline.mem_restRefs_of main_arg9 (by decide) (by decide))).trans
        (entry_untouched m c main_arg9 (by decide) (by decide) (by decide) (by decide) (by decide) (by decide)),
      ((h c).2 main_arg10 (Pipeline.mem_restRefs_of main_arg10 (by decide) (by decide))).trans
        (entry_untouched m c main_arg10 (by decide) (by decide) (by decide) (by decide) (by decide) (by decide)),
      ((h c).2 main_arg11 (Pipeline.mem_restRefs_of main_arg11 (by decide) (by decide))).trans
        (entry_untouched m c main_arg11 (by decide) (by decide) (by decide) (by decide) (by decide) (by decide)),
      ((h c).2 main_arg12 (Pipeline.mem_restRefs_of main_arg12 (by decide) (by decide))).trans
        (entry_untouched m c main_arg12 (by decide) (by decide) (by decide) (by decide) (by decide) (by decide)),
      ((h c).2 main_arg13 (Pipeline.mem_restRefs_of main_arg13 (by decide) (by decide))).trans
        (entry_untouched m c main_arg13 (by decide) (by decide) (by decide) (by decide) (by decide) (by decide)),
      ((h c).2 main_arg14 (Pipeline.mem_restRefs_of main_arg14 (by decide) (by decide))).trans
        (entry_untouched m c main_arg14 (by decide) (by decide) (by decide) (by decide) (by decide) (by decide))⟩

/-- The frame: the program terminates without fault and its fifteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => arguments_kept m r h c) (region_run m ρ)

end Cert.Kernel.Cell

end
-- ==== Proof.CellRunIdeal.lean ====
/-
  The run of the LSTM-cell program `KernelIdeal` up to and through its one kernel region, at any float instance.

  @main first builds three arrays on the host — the four input-projection matrices side by side (a 1024 × 4096
  matrix, then narrowed in format), the four recurrent matrices likewise, and the four bias vectors end to end as one
  row — and then launches the kernel on a grid of 16 points. Point `t` is handed rows 256·t … 256·t + 255 of `x`, `h0`
  and `c0` (three moving windows), the two 1024 × 4096 matrices and the bias row whole (three windows that never move),
  and two 256 × 1024 output tiles. The body reads its six inputs whole, computes, and overwrites each output tile whole;
  it also reads the output tiles before overwriting them, and discards what it read.

  Here: the contents of every buffer when the region is entered (`entry`), that the fifteen argument arrays are
  untouched by the host prefix, the tile each window shows at a point (`tile`), what the body leaves in the two output
  tiles as a function of the six input tiles (`hiddenTile`, `cellTile`), the body's Hoare triple, the per-point
  obligation of the launch, the run of the whole program (`region_run`) with every array named afterwards, and from it
  the frame: the program terminates without fault and its fifteen arguments end as they began.
-/
import proofs.«179745_j40956808135044_2_alg».proof.Proof.Gen.KernelIdeal.Launch
import proofs.«179745_j40956808135044_2_alg».proof.Proof.Gen.KernelIdeal.Skeleton
import proofs.«179745_j40956808135044_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch memory after the six host operations (three
    concatenations, two format changes, one reshape). -/
abbrev entry (c : Dev nD) (b : Ref sig .tc) : Buf (Elt F) ((c : Thread nD τ).loc b) := StableHlo.after hostOps0 (fun b => m (c, b)) b

/-- No host operation allocates. -/
theorem prefix_allocates_nothing : (hostOps0 : List (HloOp τ sig (Elt F))).Forall fun op => op.fresh = ∅ := by
  simp only [List.Forall]; repeat' constructor

/-- @main is its host prefix followed by the region, and the region is entered at `entry`. -/
theorem reaches_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub prefix_allocates_nothing main_chain

/-- The host prefix writes only its six results: any other buffer is entered as launched. -/
theorem entry_untouched (c : Dev nD) (b : Ref sig .tc) (h0 : b ≠ main_v0) (h1 : b ≠ main_v1) (h2 : b ≠ main_v2) (h3 : b ≠ main_v3)
    (h4 : b ≠ main_v4) (h5 : b ≠ main_v5) : entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5⟩))

/-! ## The windows' tiles -/

/-- The tile window `w` shows at point `t`: its block of the window's array as the region finds it. -/
def tile (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Window 0 is only read by the body: whatever point the body is at, fetched there or kept from the point before
    (its block index unmoved), the staging buffer it is handed holds the window's tile. -/
theorem tile_found0 {c : Dev nD} (dat : Dat τ (Elt F) Unit ℕ (UR sig nD τ) ℕ cfg0 c) (hA : dat.A 0 = entry m c (Pipeline.arrRef spec0 0))
    (hkeep : ∀ t, dat.after 0 t = tile m c 0 t) (t : Fin cfg0.N) (d) : dat.before 0 t d = tile m c 0 t :=
  (dat.before_in_eq_fetched 0 rfl (fun _ => rfl) (fun _ _ _ => rfl) (fun t => by rw [hkeep]; unfold Dat.blockOf tile; rw [hA]; try rfl) t d).trans
    (by unfold Dat.fetched Dat.blockOf tile; rw [hA]; try rfl)
/-- Window 1 is only read by the body: whatever point the body is at, fetched there or kept from the point before
    (its block index unmoved), the staging buffer it is handed holds the window's tile. -/
theorem tile_found1 {c : Dev nD} (dat : Dat τ (Elt F) Unit ℕ (UR sig nD τ) ℕ cfg0 c) (hA : dat.A 1 = entry m c (Pipeline.arrRef spec0 1))
    (hkeep : ∀ t, dat.after 1 t = tile m c 1 t) (t : Fin cfg0.N) (d) : dat.before 1 t d = tile m c 1 t :=
  (dat.before_in_eq_fetched 1 rfl (fun _ => rfl) (fun _ _ _ => rfl) (fun t => by rw [hkeep]; unfold Dat.blockOf tile; rw [hA]; try rfl) t d).trans
    (by unfold Dat.fetched Dat.blockOf tile; rw [hA]; try rfl)
/-- Window 2 is only read by the body: whatever point the body is at, fetched there or kept from the point before
    (its block index unmoved), the staging buffer it is handed holds the window's tile. -/
theorem tile_found2 {c : Dev nD} (dat : Dat τ (Elt F) Unit ℕ (UR sig nD τ) ℕ cfg0 c) (hA : dat.A 2 = entry m c (Pipeline.arrRef spec0 2))
    (hkeep : ∀ t, dat.after 2 t = tile m c 2 t) (t : Fin cfg0.N) (d) : dat.before 2 t d = tile m c 2 t :=
  (dat.before_in_eq_fetched 2 rfl (fun _ => rfl) (fun _ _ _ => rfl) (fun t => by rw [hkeep]; unfold Dat.blockOf tile; rw [hA]; try rfl) t d).trans
    (by unfold Dat.fetched Dat.blockOf tile; rw [hA]; try rfl)
/-- Window 3 is only read by the body: whatever point the body is at, fetched there or kept from the point before
    (its block index unmoved), the staging buffer it is handed holds the window's tile. -/
theorem tile_found3 {c : Dev nD} (dat : Dat τ (Elt F) Unit ℕ (UR sig nD τ) ℕ cfg0 c) (hA : dat.A 3 = entry m c (Pipeline.arrRef spec0 3))
    (hkeep : ∀ t, dat.after 3 t = tile m c 3 t) (t : Fin cfg0.N) (d) : dat.before 3 t d = tile m c 3 t :=
  (dat.before_in_eq_fetched 3 rfl (fun _ => rfl) (fun _ _ _ => rfl) (fun t => by rw [hkeep]; unfold Dat.blockOf tile; rw [hA]; try rfl) t d).trans
    (by unfold Dat.fetched Dat.blockOf tile; rw [hA]; try rfl)
/-- Window 4 is only read by the body: whatever point the body is at, fetched there or kept from the point before
    (its block index unmoved), the staging buffer it is handed holds the window's tile. -/
theorem tile_found4 {c : Dev nD} (dat : Dat τ (Elt F) Unit ℕ (UR sig nD τ) ℕ cfg0 c) (hA : dat.A 4 = entry m c (Pipeline.arrRef spec0 4))
    (hkeep : ∀ t, dat.after 4 t = tile m c 4 t) (t : Fin cfg0.N) (d) : dat.before 4 t d = tile m c 4 t :=
  (dat.before_in_eq_fetched 4 rfl (fun _ => rfl) (fun _ _ _ => rfl) (fun t => by rw [hkeep]; unfold Dat.blockOf tile; rw [hA]; try rfl) t d).trans
    (by unfold Dat.fetched Dat.blockOf tile; rw [hA]; try rfl)
/-- Window 5 is only read by the body: whatever point the body is at, fetched there or kept from the point before
    (its block index unmoved), the staging buffer it is handed holds the window's tile. -/
theorem tile_found5 {c : Dev nD} (dat : Dat τ (Elt F) Unit ℕ (UR sig nD τ) ℕ cfg0 c) (hA : dat.A 5 = entry m c (Pipeline.arrRef spec0 5))
    (hkeep : ∀ t, dat.after 5 t = tile m c 5 t) (t : Fin cfg0.N) (d) : dat.before 5 t d = tile m c 5 t :=
  (dat.before_in_eq_fetched 5 rfl (fun _ => rfl) (fun _ _ _ => rfl) (fun t => by rw [hkeep]; unfold Dat.blockOf tile; rw [hA]; try rfl) t d).trans
    (by unfold Dat.fetched Dat.blockOf tile; rw [hA]; try rfl)

/-! ## What the body leaves in the two output tiles -/

abbrev rows : Rect S256x1024 := Rect.unit (s := S256x1024) ![0, 0] S256x1024.size inb_S256x1024_S256x1024_0_0
abbrev mat : Rect S1024x4096 := Rect.unit (s := S1024x4096) ![0, 0] S1024x4096.size inb_S1024x4096_S1024x4096_0_0
abbrev biasRow : Rect S1x4096 := Rect.unit (s := S1x4096) ![0, 0] S1x4096.size inb_S1x4096_S1x4096_0_0

/-- The new cell state of 256 rows, from the six input tiles: forget gate × old cell state + input gate × tanh of the
    candidate, each gate a quarter of the one pre-activation `x·W + h0·U + b` (the skeleton's payload, stored whole). -/
def cellTile (x h0 c0 : Vec F S256x1024 .f32) (W U : Vec F S1024x4096 .bf16) (b : Vec F S1x4096 .f32) : Vec F S256x1024 .f32 :=
  View.canon [⟨rows, k0_pay1 (View.ld c0 rows)
    (k0_pay5 (View.ld x rows) (View.ld h0 rows) (View.ld W mat) (View.ld U mat) (View.ld b biasRow))
    (k0_pay6 (View.ld x rows) (View.ld h0 rows) (View.ld W mat) (View.ld U mat) (View.ld b biasRow))
    (k0_pay7 (View.ld x rows) (View.ld h0 rows) (View.ld W mat) (View.ld U mat) (View.ld b biasRow))⟩]

/-- The new hidden state of 256 rows: output gate × tanh of the new cell state. -/
def hiddenTile (x h0 c0 : Vec F S256x1024 .f32) (W U : Vec F S1024x4096 .bf16) (b : Vec F S1x4096 .f32) : Vec F S256x1024 .f32 :=
  View.canon [⟨rows, k0_pay2 (View.ld c0 rows)
    (k0_pay4 (View.ld x rows) (View.ld h0 rows) (View.ld W mat) (View.ld U mat) (View.ld b biasRow))
    (k0_pay5 (View.ld x rows) (View.ld h0 rows) (View.ld W mat) (View.ld U mat) (View.ld b biasRow))
    (k0_pay6 (View.ld x rows) (View.ld h0 rows) (View.ld W mat) (View.ld U mat) (View.ld b biasRow))
    (k0_pay7 (View.ld x rows) (View.ld h0 rows) (View.ld W mat) (View.ld U mat) (View.ld b biasRow))
    (Scalar.ofBits .f32 0x3E4CCCCD#32)⟩]

/-- One store through the whole-tile rectangle covers the tile. -/
theorem whole_store_covers (p : Vec F S256x1024 .f32) (y : S256x1024.Idx) :
    ∃ pc ∈ ([⟨rows, p⟩] : List (View.Piece (Elt F) S256x1024 .f32)), y ∈ pc.1.set :=
  View.cover_of_tiled [⟨rows, p⟩] S256x1024.size (by rfl) y

/-! ## The body's triple -/

set_option maxHeartbeats 1000000 in
/-- The body, on whole staging buffers holding the six input tiles and anything at all in the two output buffers, runs
    without fault and returns the inputs as they were, the hidden-state buffer at `hiddenTile` and the cell-state buffer
    at `cellTile` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h0 c0 : Vec F S256x1024 .f32) (W U : Vec F S1024x4096 .bf16) (b : Vec F S1x4096 .f32) (K : PUnit → sProp 𝕄) :
    iprop(owns (c : Thread nD τ) arg1 fullShare x ∗ owns (c : Thread nD τ) arg2 fullShare h0 ∗ owns (c : Thread nD τ) arg3 fullShare c0
        ∗ owns (c : Thread nD τ) arg4 fullShare W ∗ owns (c : Thread nD τ) arg5 fullShare U ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h0 ∗ owns (c : Thread nD τ) arg3 fullShare c0
            ∗ owns (c : Thread nD τ) arg4 fullShare W ∗ owns (c : Thread nD τ) arg5 fullShare U ∗ owns (c : Thread nD τ) arg6 fullShare b
            ∗ owns (c : Thread nD τ) arg7 fullShare (hiddenTile x h0 c0 W U b) ∗ owns (c : Thread nD τ) arg8 fullShare (cellTile x h0 c0 W U b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (whole_store_covers _)
  iexists _; isplitr
  swap; · iexact H8
  ipureintro
  try dsimp only
  exact View.read_writes_eq_canon _ _ _ (whole_store_covers _)

/-! ## The launch's proof data -/

/-- Per core: the arrays as the region finds them; after the body at point `t` each input buffer still at its tile and
    the two output buffers at the new hidden and cell rows of the six input tiles; no scratch, nothing owed, full shares. -/
def ledger (_ : Fin 1) (c : Dev nD) : Dat τ (Elt F) Unit ℕ (UR sig nD τ) ℕ cfg0 c where
  A w := entry m c (Pipeline.arrRef spec0 w)
  after w t := match w with
    | ⟨0, _⟩ => tile m c 0 t
    | ⟨1, _⟩ => tile m c 1 t
    | ⟨2, _⟩ => tile m c 2 t
    | ⟨3, _⟩ => tile m c 3 t
    | ⟨4, _⟩ => tile m c 4 t
    | ⟨5, _⟩ => tile m c 5 t
    | ⟨6, _⟩ => hiddenTile (tile m c 0 t) (tile m c 1 t) (tile m c 2 t) (tile m c 3 t) (tile m c 4 t) (tile m c 5 t)
    | ⟨7, _⟩ => cellTile (tile m c 0 t) (tile m c 1 t) (tile m c 2 t) (tile m c 3 t) (tile m c 4 t) (tile m c 5 t)
  Φ _ := Pipeline.ΦA spec0 c
  q _ := fullShare
  owed _ := 0

theorem ledger_arrays (c : Dev nD) (w : Fin cfg0.W) : (ledger m 0 c).A w = entry m c (Pipeline.arrRef spec0 w) := by
  dsimp only [ledger]

theorem left0 (c : Dev nD) (t : Fin cfg0.N) : (ledger m 0 c).after 0 t = tile m c 0 t := by dsimp only [ledger]
theorem left1 (c : Dev nD) (t : Fin cfg0.N) : (ledger m 0 c).after 1 t = tile m c 1 t := by dsimp only [ledger]
theorem left2 (c : Dev nD) (t : Fin cfg0.N) : (ledger m 0 c).after 2 t = tile m c 2 t := by dsimp only [ledger]
theorem left3 (c : Dev nD) (t : Fin cfg0.N) : (ledger m 0 c).after 3 t = tile m c 3 t := by dsimp only [ledger]
theorem left4 (c : Dev nD) (t : Fin cfg0.N) : (ledger m 0 c).after 4 t = tile m c 4 t := by dsimp only [ledger]
theorem left5 (c : Dev nD) (t : Fin cfg0.N) : (ledger m 0 c).after 5 t = tile m c 5 t := by dsimp only [ledger]
theorem left6 (c : Dev nD) (t : Fin cfg0.N) : (ledger m 0 c).after 6 t
    = hiddenTile (tile m c 0 t) (tile m c 1 t) (tile m c 2 t) (tile m c 3 t) (tile m c 4 t) (tile m c 5 t) := by dsimp only [ledger]
theorem left7 (c : Dev nD) (t : Fin cfg0.N) : (ledger m 0 c).after 7 t
    = cellTile (tile m c 0 t) (tile m c 1 t) (tile m c 2 t) (tile m c 3 t) (tile m c 4 t) (tile m c 5 t) := by dsimp only [ledger]

theorem found0 (c : Dev nD) (t : Fin cfg0.N) (d) : (ledger m 0 c).before 0 t d = tile m c 0 t :=
  tile_found0 m (ledger m 0 c) (ledger_arrays m c 0) (left0 m c) t d
theorem found1 (c : Dev nD) (t : Fin cfg0.N) (d) : (ledger m 0 c).before 1 t d = tile m c 1 t :=
  tile_found1 m (ledger m 0 c) (ledger_arrays m c 1) (left1 m c) t d
theorem found2 (c : Dev nD) (t : Fin cfg0.N) (d) : (ledger m 0 c).before 2 t d = tile m c 2 t :=
  tile_found2 m (ledger m 0 c) (ledger_arrays m c 2) (left2 m c) t d
theorem found3 (c : Dev nD) (t : Fin cfg0.N) (d) : (ledger m 0 c).before 3 t d = tile m c 3 t :=
  tile_found3 m (ledger m 0 c) (ledger_arrays m c 3) (left3 m c) t d
theorem found4 (c : Dev nD) (t : Fin cfg0.N) (d) : (ledger m 0 c).before 4 t d = tile m c 4 t :=
  tile_found4 m (ledger m 0 c) (ledger_arrays m c 4) (left4 m c) t d
theorem found5 (c : Dev nD) (t : Fin cfg0.N) (d) : (ledger m 0 c).before 5 t d = tile m c 5 t :=
  tile_found5 m (ledger m 0 c) (ledger_arrays m c 5) (left5 m c) t d

/-! ## The body at a point of the grid -/

/-- What the launch hands the body at point `t`, the eight windows one by one, -/
def handed (c : Dev nD) (t : Fin cfg0.N) : sProp 𝕄 :=
  iprop((ledger m 0 c).Φ t.castSucc ∗ (ledger m 0 c).owesAt () t.castSucc
    ∗ (∃ d, owns (c : Thread nD τ) (st0_0 t) fullShare ((ledger m 0 c).before 0 t d))
    ∗ (∃ d, owns (c : Thread nD τ) (st0_1 t) fullShare ((ledger m 0 c).before 1 t d))
    ∗ (∃ d, owns (c : Thread nD τ) (st0_2 t) fullShare ((ledger m 0 c).before 2 t d))
    ∗ (∃ d, owns (c : Thread nD τ) (st0_3 t) fullShare ((ledger m 0 c).before 3 t d))
    ∗ (∃ d, owns (c : Thread nD τ) (st0_4 t) fullShare ((ledger m 0 c).before 4 t d))
    ∗ (∃ d, owns (c : Thread nD τ) (st0_5 t) fullShare ((ledger m 0 c).before 5 t d))
    ∗ (∃ d, owns (c : Thread nD τ) (st0_6 t) fullShare ((ledger m 0 c).before 6 t d))
    ∗ (∃ d, owns (c : Thread nD τ) (st0_7 t) fullShare ((ledger m 0 c).before 7 t d)))

/-- and what the body hands back. -/
def returned (c : Dev nD) (t : Fin cfg0.N) : sProp 𝕄 :=
  iprop((ledger m 0 c).Φ t.succ ∗ (ledger m 0 c).owesAt () t.succ
    ∗ owns (c : Thread nD τ) (st0_0 t) fullShare ((ledger m 0 c).after 0 t)
    ∗ owns (c : Thread nD τ) (st0_1 t) fullShare ((ledger m 0 c).after 1 t)
    ∗ owns (c : Thread nD τ) (st0_2 t) fullShare ((ledger m 0 c).after 2 t)
    ∗ owns (c : Thread nD τ) (st0_3 t) fullShare ((ledger m 0 c).after 3 t)
    ∗ owns (c : Thread nD τ) (st0_4 t) fullShare ((ledger m 0 c).after 4 t)
    ∗ owns (c : Thread nD τ) (st0_5 t) fullShare ((ledger m 0 c).after 5 t)
    ∗ owns (c : Thread nD τ) (st0_6 t) fullShare ((ledger m 0 c).after 6 t)
    ∗ owns (c : Thread nD τ) (st0_7 t) fullShare ((ledger m 0 c).after 7 t))

/-- At any point the six input buffers hold their tiles, so the body's triple applies; the invariant and the core's
    debts pass through unread. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [found0, found1, found2, found3, found4, found5]
  rw [show (ledger m 0 c).Φ t.succ = (ledger m 0 c).Φ t.castSucc from rfl,
    show (ledger m 0 c).owesAt () t.succ = (ledger m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (tile m c 0 t) (tile m c 1 t) (tile m c 2 t) (tile m c 3 t) (tile m c 4 t) (tile m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_everywhere (c : Dev nD) : BodyObligation (ledger (F := F) m 0 c) (defs₀ (F := F)) Variants.none () Set.univ := fun t => by
  rw [bigSep_W0, bigSep_W0]
  exact body_at_point m c t

/-! ## The run, and the frame -/

set_option backward.isDefEq.respectTransparency.types false in
/-- From any memory with zero counters, every weakly fair execution of @main terminates without fault, every window's
    array ending at what the launch's write-backs of `ledger` leave in it and every other unscoped buffer as the region
    found it. -/
theorem region_run : θ_run defs (onTc (τ := τ) (main (F := F))) (s₀ m ρ) (Pipeline.FramePost cfgs (ledger m) 0 (entry m)) :=
  Pipeline.θ_run_frame cfgs (ledger m) (0 : Fin 1) launch0 defs₀ Variants.none m ρ main
    (hbody := fun c => (body_everywhere m c).loose) (hshare := fun c => (ledger m 0 c).share_full fun _ => rfl)
    (howed := fun _ _ => rfl) (V := entry m) (hmain := reaches_region m Variants.none) (hA := ledger_arrays m) (hΦ := fun _ _ => rfl)

/-- Read off the run's post: the fifteen argument arrays are as they began — `x`, `h0`, `c0` are input windows' arrays
    (never written back), the twelve others no window's array, and none is written by the host prefix. -/
theorem arguments_kept (r : PUnit × MemSt nD τ sig (Elt F)) (h : Pipeline.FramePost cfgs (ledger m) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((ledger m 0 c).arrAt_in 0 rfl _).trans ((ledger_arrays m c 0).trans
        (entry_untouched m c main_arg0 (by decide) (by decide) (by decide) (by decide) (by decide) (by decide)))),
      ((h c).1 2).trans (((ledger m 0 c).arrAt_in 2 rfl _).trans ((ledger_arrays m c 2).trans
        (entry_untouched m c main_arg1 (by decide) (by decide) (by decide) (by decide) (by decide) (by decide)))),
      ((h c).1 1).trans (((ledger m 0 c).arrAt_in 1 rfl _).trans ((ledger_arrays m c 1).trans
        (entry_untouched m c main_arg2 (by decide) (by decide) (by decide) (by decide) (by decide) (by decide)))),
      ((h c).2 main_arg3 (Pipeline.mem_restRefs_of main_arg3 (by decide) (by decide))).trans
        (entry_untouched m c main_arg3 (by decide) (by decide) (by decide) (by decide) (by decide) (by decide)),
      ((h c).2 main_arg4 (Pipeline.mem_restRefs_of main_arg4 (by decide) (by decide))).trans
        (entry_untouched m c main_arg4 (by decide) (by decide) (by decide) (by decide) (by decide) (by decide)),
      ((h c).2 main_arg5 (Pipeline.mem_restRefs_of main_arg5 (by decide) (by decide))).trans
        (entry_untouched m c main_arg5 (by decide) (by decide) (by decide) (by decide) (by decide) (by decide)),
      ((h c).2 main_arg6 (Pipeline.mem_restRefs_of main_arg6 (by decide) (by decide))).trans
        (entry_untouched m c main_arg6 (by decide) (by decide) (by decide) (by decide) (by decide) (by decide)),
      ((h c).2 main_arg7 (Pipeline.mem_restRefs_of main_arg7 (by decide) (by decide))).trans
        (entry_untouched m c main_arg7 (by decide) (by decide) (by decide) (by decide) (by decide) (by decide)),
      ((h c).2 main_arg8 (Pipeline.mem_restRefs_of main_arg8 (by decide) (by decide))).trans
        (entry_untouched m c main_arg8 (by decide) (by decide) (by decide) (by decide) (by decide) (by decide)),
      ((h c).2 main_arg9 (Pipeline.mem_restRefs_of main_arg9 (by decide) (by decide))).trans
        (entry_untouched m c main_arg9 (by decide) (by decide) (by decide) (by decide) (by decide) (by decide)),
      ((h c).2 main_arg10 (Pipeline.mem_restRefs_of main_arg10 (by decide) (by decide))).trans
        (entry_untouched m c main_arg10 (by decide) (by decide) (by decide) (by decide) (by decide) (by decide)),
      ((h c).2 main_arg11 (Pipeline.mem_restRefs_of main_arg11 (by decide) (by decide))).trans
        (entry_untouched m c main_arg11 (by decide) (by decide) (by decide) (by decide) (by decide) (by decide)),
      ((h c).2 main_arg12 (Pipeline.mem_restRefs_of main_arg12 (by decide) (by decide))).trans
        (entry_untouched m c main_arg12 (by decide) (by decide) (by decide) (by decide) (by decide) (by decide)),
      ((h c).2 main_arg13 (Pipeline.mem_restRefs_of main_arg13 (by decide) (by decide))).trans
        (entry_untouched m c main_arg13 (by decide) (by decide) (by decide) (by decide) (by decide) (by decide)),
      ((h c).2 main_arg14 (Pipeline.mem_restRefs_of main_arg14 (by decide) (by decide))).trans
        (entry_untouched m c main_arg14 (by decide) (by decide) (by decide) (by decide) (by decide) (by decide))⟩

/-- The frame: the program terminates without fault and its fifteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => arguments_kept m r h c) (region_run m ρ)

end Cert.KernelIdeal.Cell

end
-- ==== Proof.CellSpec.lean ====
/-
  The LSTM cell, stated once, entry by entry, on the extended reals.

  Inputs: `x`, `h0`, `c0` of 4096 rows by 1024 columns; the input-projection and recurrent matrices `W`, `U` of 1024 rows
  by 4096 columns (four 1024-wide gate blocks side by side: forget, input, output, candidate); the bias `b` of 4096
  entries. The pre-activation at row `p` and column `q` is  z(p, q) = Σₖ x(p, k)·W(k, q) + Σₖ h0(p, k)·U(k, q) + b(q).
  A gate is the hard sigmoid  clip(0.2·z + 0.5, 0, 1)  with the four constants at their single-precision values. Then
      c(p, j) = gate z(p, j) · c0(p, j) + gate z(p, 1024 + j) · tanh z(p, 3072 + j),
      h(p, j) = gate z(p, 2048 + j) · tanh c(p, j).
  Nothing here needs the inputs to be finite: both programs compute these very expressions, sums in the same order.
-/
import Idealize.ShloMosaic.PureOps.Ideal
import Idealize.ShloMosaic.Lib.ValueIdx

noncomputable section

open scoped BigOperators

namespace Cert.CellSpec

open Idealize.ShloMosaic Idealize.ShloMosaic.ValueIdx

/-- 4096 rows of 1024 features. -/
abbrev Batch : Shape := ⟨2, ![4096, 1024]⟩
/-- 1024 rows of four 1024-wide gate blocks. -/
abbrev Wide : Shape := ⟨2, ![1024, 4096]⟩
/-- The four biases end to end. -/
abbrev Flat : Shape := ⟨1, ![4096]⟩

/-- The hard sigmoid `clip(0.2·z + 0.5, 0, 1)`, its constants the single-precision words the programs spell. -/
def gate (z : EReal) : EReal :=
  min (Ideal.ofBits .f32 0x3F800000#32)
    (max (Ideal.ofBits .f32 0x00000000#32) (Ideal.ofBits .f32 0x3E4CCCCD#32 * z + Ideal.ofBits .f32 0x3F000000#32))

/-- Column `j` of the gate block that starts at column `off`. -/
abbrev col (off : Nat) (h : off + 1024 ≤ 4096) (j : Fin 1024) : Fin 4096 := ⟨off + j.val, by have := j.isLt; omega⟩

/-- The pre-activation `x·W + h0·U + b` at row `p`, column `q`. -/
def pre (x h0 : Batch.Idx → EReal) (W U : Wide.Idx → EReal) (b : Flat.Idx → EReal) (p : Fin 4096) (q : Fin 4096) : EReal :=
  (∑ k : Fin 1024, x (ix2 p k) * W (ix2 k q)) + (∑ k : Fin 1024, h0 (ix2 p k) * U (ix2 k q)) + b (ix1 q)

/-- The new cell state. -/
def cell (x h0 c0 : Batch.Idx → EReal) (W U : Wide.Idx → EReal) (b : Flat.Idx → EReal) : Batch.Idx → EReal := fun i =>
  gate (pre x h0 W U b (i 0) (col 0 (by decide) (i 1))) * c0 i
    + gate (pre x h0 W U b (i 0) (col 1024 (by decide) (i 1))) * Ideal.tanh (pre x h0 W U b (i 0) (col 3072 (by decide) (i 1)))

/-- The new hidden state. -/
def hidden (x h0 c0 : Batch.Idx → EReal) (W U : Wide.Idx → EReal) (b : Flat.Idx → EReal) : Batch.Idx → EReal := fun i =>
  gate (pre x h0 W U b (i 0) (col 2048 (by decide) (i 1))) * Ideal.tanh (cell x h0 c0 W U b i)

end Cert.CellSpec

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.CellValue.lean ====
/-
  What the kernel program's two results hold after the run, entry by entry: the specification's new hidden and cell
  states of the fifteen arguments.

  Point `t` of the grid sees rows 256·t … 256·t + 255 of `x`, `h0`, `c0` and the whole of the two concatenated matrices
  and of the bias row, and writes back rows 256·t … 256·t + 255 of the two results; the sixteen row bands tile the 4096
  rows. Within a band the body's arithmetic is the specification's, read at the band's rows: the matrix unit's product
  into a zero accumulator is the plain sum over the 1024 contracted columns, a change of float format is the identity,
  the bias row broadcast over the 256 rows reads the bias at the column, and the four gate blocks are the four
  1024-wide column slices of the one pre-activation.
-/
import proofs.«179745_j40956808135044_2_alg».proof.Proof.CellRunIdeal
import proofs.«179745_j40956808135044_2_alg».proof.Proof.CellSpec
import proofs.«179745_j40956808135044_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.CellValue

open Cert.KernelIdeal Cert.KernelIdeal.Gen Cert.KernelIdeal.Cell Cert.CellSpec
open Idealize.ShloMosaic Idealize.ShloMosaic.TcCoe Idealize.ShloMosaic.ValueIdx Idealize.SL.Sem Idealize.ShloMosaic.StableHlo

/-! ## One band of 256 rows -/

/-- The band's pre-activation at row `p` of the band and column `q`. -/
def bandPre (x h0 : Vec Ideal S256x1024 .f32) (W U : Vec Ideal S1024x4096 .bf16) (b : Vec Ideal S1x4096 .f32) (p : Fin 256) (q : Fin 4096) : EReal :=
  (∑ k : Fin 1024, x (ix2 p k) * W (ix2 k q)) + (∑ k : Fin 1024, h0 (ix2 p k) * U (ix2 k q)) + b (ix2 (0 : Fin 1) q)

/-- The body's pre-activation payload, read at an entry: two plain products into zero accumulators, added, plus the bias
    row broadcast down the band. -/
theorem pre_at (x h0 : Vec Ideal S256x1024 .f32) (W U : Vec Ideal S1024x4096 .bf16) (b : Vec Ideal S1x4096 .f32) (p : Fin 256) (q : Fin 4096) :
    k0_pay3 x h0 W U b (ix2 p q) = bandPre x h0 W U b p q := by
  unfold k0_pay3 bandPre
  rw [addf_apply, addf_apply, shapeCast_self, shapeCast_self, shapeCast_self, broadcastTo_1b_ab_apply]
  refine congrArg₂ (· + ·) (congrArg₂ (· + ·) ?_ ?_) rfl
  · exact matmul_plain_zero_apply none (truncf .bf16 x bitsLt_bf16_f32) W p q
  · exact matmul_plain_zero_apply none (truncf .bf16 h0 bitsLt_bf16_f32) U p q

/-- A 1024-wide column slice of a band reads the band at the column moved by the slice's offset. -/
theorem slice_at (z : FVec Ideal S256x4096 .f32) (off : Nat) (hoff : off + 1024 ≤ 4096) (h : S256x4096.Slices ![0, off] S256x1024)
    (p : Fin 256) (j : Fin 1024) :
    extractStridedSlice S256x1024 ![0, off] z h (ix2 p j) = z (ix2 p (col off hoff j)) :=
  extractStridedSlice_apply ![0, off] z h (ix2 p j) (ix2 p (col off hoff j)) (fun a => match a with
    | ⟨0, _⟩ => by show p.val = 0 + p.val; omega
    | ⟨1, _⟩ => rfl)

/-- The output gate's pre-activation: the slice at column 2048. -/
theorem out_pre_at (x h0 : Vec Ideal S256x1024 .f32) (W U : Vec Ideal S1024x4096 .bf16) (b : Vec Ideal S1x4096 .f32) (p : Fin 256) (j : Fin 1024) :
    k0_pay4 x h0 W U b (ix2 p j) = bandPre x h0 W U b p (col 2048 (by decide) j) := by
  unfold k0_pay4
  rw [slice_at _ 2048 (by decide), pre_at]

/-- The candidate's pre-activation: the slice at column 3072. -/
theorem cand_pre_at (x h0 : Vec Ideal S256x1024 .f32) (W U : Vec Ideal S1024x4096 .bf16) (b : Vec Ideal S1x4096 .f32) (p : Fin 256) (j : Fin 1024) :
    k0_pay5 x h0 W U b (ix2 p j) = bandPre x h0 W U b p (col 3072 (by decide) j) := by
  unfold k0_pay5
  rw [slice_at _ 3072 (by decide), pre_at]

/-- The forget gate: the hard sigmoid of the slice at column 0. -/
theorem forget_at (x h0 : Vec Ideal S256x1024 .f32) (W U : Vec Ideal S1024x4096 .bf16) (b : Vec Ideal S1x4096 .f32) (p : Fin 256) (j : Fin 1024) :
    k0_pay6 x h0 W U b (ix2 p j) = gate (bandPre x h0 W U b p (col 0 (by decide) j)) := by
  unfold k0_pay6
  show gate (extractStridedSlice S256x1024 ![0, 0] (k0_pay3 x h0 W U b) slices_S256x4096_o0_0_S256x1024 (ix2 p j)) = _
  rw [slice_at _ 0 (by decide), pre_at]

/-- The input gate: the hard sigmoid of the slice at column 1024. -/
theorem input_at (x h0 : Vec Ideal S256x1024 .f32) (W U : Vec Ideal S1024x4096 .bf16) (b : Vec Ideal S1x4096 .f32) (p : Fin 256) (j : Fin 1024) :
    k0_pay7 x h0 W U b (ix2 p j) = gate (bandPre x h0 W U b p (col 1024 (by decide) j)) := by
  unfold k0_pay7
  show gate (extractStridedSlice S256x1024 ![0, 1024] (k0_pay3 x h0 W U b) slices_S256x4096_o0_1024_S256x1024 (ix2 p j)) = _
  rw [slice_at _ 1024 (by decide), pre_at]

/-- The band's new cell rows, by the specification's formula over the band's pre-activation. -/
def bandCell (x h0 c0 : Vec Ideal S256x1024 .f32) (W U : Vec Ideal S1024x4096 .bf16) (b : Vec Ideal S1x4096 .f32) : S256x1024.Idx → EReal := fun y =>
  gate (bandPre x h0 W U b (y 0) (col 0 (by decide) (y 1))) * c0 y
    + gate (bandPre x h0 W U b (y 0) (col 1024 (by decide) (y 1))) * Ideal.tanh (bandPre x h0 W U b (y 0) (col 3072 (by decide) (y 1)))

/-- The band's new hidden rows. -/
def bandHidden (x h0 c0 : Vec Ideal S256x1024 .f32) (W U : Vec Ideal S1024x4096 .bf16) (b : Vec Ideal S1x4096 .f32) : S256x1024.Idx → EReal := fun y =>
  gate (bandPre x h0 W U b (y 0) (col 2048 (by decide) (y 1))) * Ideal.tanh (bandCell x h0 c0 W U b y)

theorem origin : (![0, 0] : Fin 2 → Nat) = fun _ => 0 := funext fun a => by fin_cases a <;> rfl

/-- What the body stores into the cell-state tile is the band's new cell rows. -/
theorem cellTile_eq (x h0 c0 : Vec Ideal S256x1024 .f32) (W U : Vec Ideal S1024x4096 .bf16) (b : Vec Ideal S1x4096 .f32) : cellTile x h0 c0 W U b = bandCell x h0 c0 W U b := by
  unfold cellTile
  rw [View.canon_unit_zero origin]
  simp only [View.ld_unit_zero (S := S256x1024) origin, View.ld_unit_zero (S := S1024x4096) origin, View.ld_unit_zero (S := S1x4096) origin]
  funext y
  obtain ⟨p, j, rfl⟩ : ∃ (p : Fin 256) (j : Fin 1024), y = ix2 p j := ⟨y 0, y 1, eq_ix2 y⟩
  show k0_pay6 x h0 W U b (ix2 p j) * c0 (ix2 p j) + k0_pay7 x h0 W U b (ix2 p j) * Ideal.tanh (k0_pay5 x h0 W U b (ix2 p j)) = _
  rw [forget_at, input_at, cand_pre_at]
  rfl

/-- What the body stores into the hidden-state tile is the band's new hidden rows. -/
theorem hiddenTile_eq (x h0 c0 : Vec Ideal S256x1024 .f32) (W U : Vec Ideal S1024x4096 .bf16) (b : Vec Ideal S1x4096 .f32) : hiddenTile x h0 c0 W U b = bandHidden x h0 c0 W U b := by
  unfold hiddenTile
  rw [View.canon_unit_zero origin]
  simp only [View.ld_unit_zero (S := S256x1024) origin, View.ld_unit_zero (S := S1024x4096) origin, View.ld_unit_zero (S := S1x4096) origin]
  funext y
  obtain ⟨p, j, rfl⟩ : ∃ (p : Fin 256) (j : Fin 1024), y = ix2 p j := ⟨y 0, y 1, eq_ix2 y⟩
  show gate (k0_pay4 x h0 W U b (ix2 p j))
      * Ideal.tanh (k0_pay6 x h0 W U b (ix2 p j) * c0 (ix2 p j) + k0_pay7 x h0 W U b (ix2 p j) * Ideal.tanh (k0_pay5 x h0 W U b (ix2 p j))) = _
  rw [out_pre_at, forget_at, input_at, cand_pre_at]
  rfl

/-! ## The arrays the bands are cut from -/

variable (m : (ℓ : Loc nD τ sig) → Buf (Elt Ideal) ℓ) (ρ : Dev nD → PrngReg)

/-- The four input-projection matrices side by side. -/
def Wcat (c : Dev nD) : S1024x4096.Idx → EReal :=
  concatenate S1024x4096 1 [⟨S1024x1024, (m ((c : Thread nD τ).loc main_arg3))⟩, ⟨S1024x1024, (m ((c : Thread nD τ).loc main_arg4))⟩, ⟨S1024x1024, (m ((c : Thread nD τ).loc main_arg5))⟩, ⟨S1024x1024, (m ((c : Thread nD τ).loc main_arg6))⟩]
    concatenates_S1024x1024_S1024x1024_S1024x1024_S1024x1024_S1024x4096_d1
/-- The four recurrent matrices side by side. -/
def Ucat (c : Dev nD) : S1024x4096.Idx → EReal :=
  concatenate S1024x4096 1 [⟨S1024x1024, (m ((c : Thread nD τ).loc main_arg7))⟩, ⟨S1024x1024, (m ((c : Thread nD τ).loc main_arg8))⟩, ⟨S1024x1024, (m ((c : Thread nD τ).loc main_arg9))⟩, ⟨S1024x1024, (m ((c : Thread nD τ).loc main_arg10))⟩]
    concatenates_S1024x1024_S1024x1024_S1024x1024_S1024x1024_S1024x4096_d1
/-- The four biases end to end. -/
def bcat (c : Dev nD) : S4096.Idx → EReal :=
  concatenate S4096 0 [⟨S1024, (m ((c : Thread nD τ).loc main_arg11))⟩, ⟨S1024, (m ((c : Thread nD τ).loc main_arg12))⟩, ⟨S1024, (m ((c : Thread nD τ).loc main_arg13))⟩, ⟨S1024, (m ((c : Thread nD τ).loc main_arg14))⟩]
    concatenates_S1024_S1024_S1024_S1024_S4096_d0

/-- The region finds the first matrix window's array at the concatenation (its change of format is the identity). -/
theorem entry_W (c : Dev nD) : (entry m c main_v1 : S1024x4096.Idx → EReal) = Wcat m c := by
  dsimp only [entry, hostOps0]; after_results; rfl
theorem entry_U (c : Dev nD) : (entry m c main_v3 : S1024x4096.Idx → EReal) = Ucat m c := by
  dsimp only [entry, hostOps0]; after_results; rfl
/-- and the bias window's array at the end-to-end biases laid out as one row. -/
theorem entry_b (c : Dev nD) : (entry m c main_v5 : S1x4096.Idx → EReal) = shapeCast S1x4096 (bcat m c) shapeCasts_S4096_S1x4096 := by
  dsimp only [entry, hostOps0]; after_results; rfl

/-! ## Which rows a point's windows show -/

theorem points : ∀ t : Fin cfg0.N, t.val < 16 := fun t => lt_of_lt_of_eq t.isLt N_0

/-- Row `p` of band `t`. -/
abbrev row (t : Fin cfg0.N) (p : Fin 256) : Fin 4096 := ⟨256 * t.val + p.val, by have := points t; have := p.isLt; omega⟩

theorem moving0 : ∀ t : Fin cfg0.N, win0_0.index t (0 : Fin 2) = t.val ∧ win0_0.index t (1 : Fin 2) = 0 :=
  (by decide +kernel : ∀ t : Fin grid0.N, _)
theorem moving1 : ∀ t : Fin cfg0.N, win0_1.index t (0 : Fin 2) = t.val ∧ win0_1.index t (1 : Fin 2) = 0 :=
  (by decide +kernel : ∀ t : Fin grid0.N, _)
theorem moving2 : ∀ t : Fin cfg0.N, win0_2.index t (0 : Fin 2) = t.val ∧ win0_2.index t (1 : Fin 2) = 0 :=
  (by decide +kernel : ∀ t : Fin grid0.N, _)
theorem moving6 : ∀ t : Fin cfg0.N, win0_6.index t (0 : Fin 2) = t.val ∧ win0_6.index t (1 : Fin 2) = 0 :=
  (by decide +kernel : ∀ t : Fin grid0.N, _)
theorem moving7 : ∀ t : Fin cfg0.N, win0_7.index t (0 : Fin 2) = t.val ∧ win0_7.index t (1 : Fin 2) = 0 :=
  (by decide +kernel : ∀ t : Fin grid0.N, _)
theorem fixed3 : ∀ t : Fin cfg0.N, win0_3.index t (0 : Fin 2) = 0 ∧ win0_3.index t (1 : Fin 2) = 0 :=
  (by decide +kernel : ∀ t : Fin grid0.N, _)
theorem fixed4 : ∀ t : Fin cfg0.N, win0_4.index t (0 : Fin 2) = 0 ∧ win0_4.index t (1 : Fin 2) = 0 :=
  (by decide +kernel : ∀ t : Fin grid0.N, _)
theorem fixed5 : ∀ t : Fin cfg0.N, win0_5.index t (0 : Fin 2) = 0 ∧ win0_5.index t (1 : Fin 2) = 0 :=
  (by decide +kernel : ∀ t : Fin grid0.N, _)

theorem emb0 (t : Fin cfg0.N) (y : S256x1024.Idx) : ((cfg0.win 0).blk t).view.emb y = ix2 (row t (y 0)) (y 1) := by
  obtain ⟨e0, e1⟩ := moving0 t
  funext a; apply Fin.ext
  match a with
  | ⟨0, _⟩ => show win0_0.index t (0 : Fin 2) * 256 + 1 * (y 0).val = 256 * t.val + (y 0).val; omega
  | ⟨1, _⟩ => show win0_0.index t (1 : Fin 2) * 1024 + 1 * (y 1).val = (y 1).val; omega
theorem emb1 (t : Fin cfg0.N) (y : S256x1024.Idx) : ((cfg0.win 1).blk t).view.emb y = ix2 (row t (y 0)) (y 1) := by
  obtain ⟨e0, e1⟩ := moving1 t
  funext a; apply Fin.ext
  match a with
  | ⟨0, _⟩ => show win0_1.index t (0 : Fin 2) * 256 + 1 * (y 0).val = 256 * t.val + (y 0).val; omega
  | ⟨1, _⟩ => show win0_1.index t (1 : Fin 2) * 1024 + 1 * (y 1).val = (y 1).val; omega
theorem emb2 (t : Fin cfg0.N) (y : S256x1024.Idx) : ((cfg0.win 2).blk t).view.emb y = ix2 (row t (y 0)) (y 1) := by
  obtain ⟨e0, e1⟩ := moving2 t
  funext a; apply Fin.ext
  match a with
  | ⟨0, _⟩ => show win0_2.index t (0 : Fin 2) * 256 + 1 * (y 0).val = 256 * t.val + (y 0).val; omega
  | ⟨1, _⟩ => show win0_2.index t (1 : Fin 2) * 1024 + 1 * (y 1).val = (y 1).val; omega
theorem emb6 (t : Fin cfg0.N) (y : S256x1024.Idx) : ((cfg0.win 6).blk t).view.emb y = ix2 (row t (y 0)) (y 1) := by
  obtain ⟨e0, e1⟩ := moving6 t
  funext a; apply Fin.ext
  match a with
  | ⟨0, _⟩ => show win0_6.index t (0 : Fin 2) * 256 + 1 * (y 0).val = 256 * t.val + (y 0).val; omega
  | ⟨1, _⟩ => show win0_6.index t (1 : Fin 2) * 1024 + 1 * (y 1).val = (y 1).val; omega
theorem emb7 (t : Fin cfg0.N) (y : S256x1024.Idx) : ((cfg0.win 7).blk t).view.emb y = ix2 (row t (y 0)) (y 1) := by
  obtain ⟨e0, e1⟩ := moving7 t
  funext a; apply Fin.ext
  match a with
  | ⟨0, _⟩ => show win0_7.index t (0 : Fin 2) * 256 + 1 * (y 0).val = 256 * t.val + (y 0).val; omega
  | ⟨1, _⟩ => show win0_7.index t (1 : Fin 2) * 1024 + 1 * (y 1).val = (y 1).val; omega
theorem emb3 (t : Fin cfg0.N) (y : S1024x4096.Idx) : ((cfg0.win 3).blk t).view.emb y = y := by
  obtain ⟨e0, e1⟩ := fixed3 t
  funext a; apply Fin.ext
  match a with
  | ⟨0, _⟩ => show win0_3.index t (0 : Fin 2) * 1024 + 1 * (y 0).val = (y 0).val; omega
  | ⟨1, _⟩ => show win0_3.index t (1 : Fin 2) * 4096 + 1 * (y 1).val = (y 1).val; omega
theorem emb4 (t : Fin cfg0.N) (y : S1024x4096.Idx) : ((cfg0.win 4).blk t).view.emb y = y := by
  obtain ⟨e0, e1⟩ := fixed4 t
  funext a; apply Fin.ext
  match a with
  | ⟨0, _⟩ => show win0_4.index t (0 : Fin 2) * 1024 + 1 * (y 0).val = (y 0).val; omega
  | ⟨1, _⟩ => show win0_4.index t (1 : Fin 2) * 4096 + 1 * (y 1).val = (y 1).val; omega
theorem emb5 (t : Fin cfg0.N) (y : S1x4096.Idx) : ((cfg0.win 5).blk t).view.emb y = y := by
  obtain ⟨e0, e1⟩ := fixed5 t
  funext a; apply Fin.ext
  match a with
  | ⟨0, _⟩ => show win0_5.index t (0 : Fin 2) * 1 + 1 * (y 0).val = (y 0).val; omega
  | ⟨1, _⟩ => show win0_5.index t (1 : Fin 2) * 4096 + 1 * (y 1).val = (y 1).val; omega

/-- Band `t` of `x`. -/
theorem x_band (c : Dev nD) (t : Fin cfg0.N) (y : S256x1024.Idx) : tile m c 0 t y = (m ((c : Thread nD τ).loc main_arg0)) (ix2 (row t (y 0)) (y 1)) := by
  show entry m c main_arg0 (((cfg0.win 0).blk t).view.emb y) = _
  rw [emb0, entry_untouched m c main_arg0 (by decide) (by decide) (by decide) (by decide) (by decide) (by decide)]
  rfl
/-- Band `t` of `h0`. -/
theorem h_band (c : Dev nD) (t : Fin cfg0.N) (y : S256x1024.Idx) : tile m c 1 t y = (m ((c : Thread nD τ).loc main_arg2)) (ix2 (row t (y 0)) (y 1)) := by
  show entry m c main_arg2 (((cfg0.win 1).blk t).view.emb y) = _
  rw [emb1, entry_untouched m c main_arg2 (by decide) (by decide) (by decide) (by decide) (by decide) (by decide)]
  rfl
/-- Band `t` of `c0`. -/
theorem c_band (c : Dev nD) (t : Fin cfg0.N) (y : S256x1024.Idx) : tile m c 2 t y = (m ((c : Thread nD τ).loc main_arg1)) (ix2 (row t (y 0)) (y 1)) := by
  show entry m c main_arg1 (((cfg0.win 2).blk t).view.emb y) = _
  rw [emb2, entry_untouched m c main_arg1 (by decide) (by decide) (by decide) (by decide) (by decide) (by decide)]
  rfl
/-- The matrix windows show the whole concatenations at every point, -/
theorem W_whole (c : Dev nD) (t : Fin cfg0.N) (y : S1024x4096.Idx) : tile m c 3 t y = Wcat m c y := by
  show entry m c main_v1 (((cfg0.win 3).blk t).view.emb y) = _
  rw [emb3, entry_W]
theorem U_whole (c : Dev nD) (t : Fin cfg0.N) (y : S1024x4096.Idx) : tile m c 4 t y = Ucat m c y := by
  show entry m c main_v3 (((cfg0.win 4).blk t).view.emb y) = _
  rw [emb4, entry_U]
/-- and the bias window the bias at the column. -/
theorem b_whole (c : Dev nD) (t : Fin cfg0.N) (q : Fin 4096) : tile m c 5 t (ix2 (0 : Fin 1) q) = bcat m c (ix1 q) := by
  show entry m c main_v5 (((cfg0.win 5).blk t).view.emb (ix2 (0 : Fin 1) q)) = _
  rw [emb5, entry_b]
  exact shapeCast_a_1a_apply (bcat m c) shapeCasts_S4096_S1x4096 (0 : Fin 1) q

/-- The pre-activation of band `t` at its row `p` is the specification's at row 256·t + p. -/
theorem band_pre (c : Dev nD) (t : Fin cfg0.N) (p : Fin 256) (q : Fin 4096) :
    bandPre (tile m c 0 t) (tile m c 1 t) (tile m c 3 t) (tile m c 4 t) (tile m c 5 t) p q
      = pre (m ((c : Thread nD τ).loc main_arg0)) (m ((c : Thread nD τ).loc main_arg2)) (Wcat m c) (Ucat m c) (bcat m c) (row t p) q := by
  unfold bandPre pre
  rw [b_whole]
  refine congrArg₂ (· + ·) (congrArg₂ (· + ·) (Finset.sum_congr rfl fun k _ => ?_) (Finset.sum_congr rfl fun k _ => ?_)) rfl
  · rw [x_band, W_whole]
  · rw [h_band, U_whole]

/-! ## What each point writes back, and the arrays after the run -/

/-- The band's new cell rows are the specification's at the band's rows. -/
theorem cell_rows (c : Dev nD) (t : Fin cfg0.N) (y : S256x1024.Idx) :
    bandCell (tile m c 0 t) (tile m c 1 t) (tile m c 2 t) (tile m c 3 t) (tile m c 4 t) (tile m c 5 t) y = cell (m ((c : Thread nD τ).loc main_arg0)) (m ((c : Thread nD τ).loc main_arg2)) (m ((c : Thread nD τ).loc main_arg1)) (Wcat m c) (Ucat m c) (bcat m c) (ix2 (row t (y 0)) (y 1)) := by
  obtain ⟨p, j, rfl⟩ : ∃ (p : Fin 256) (j : Fin 1024), y = ix2 p j := ⟨y 0, y 1, eq_ix2 y⟩
  show gate (bandPre (tile m c 0 t) (tile m c 1 t) (tile m c 3 t) (tile m c 4 t) (tile m c 5 t) p (col 0 (by decide) j)) * tile m c 2 t (ix2 p j)
      + gate (bandPre (tile m c 0 t) (tile m c 1 t) (tile m c 3 t) (tile m c 4 t) (tile m c 5 t) p (col 1024 (by decide) j)) * Ideal.tanh (bandPre (tile m c 0 t) (tile m c 1 t) (tile m c 3 t) (tile m c 4 t) (tile m c 5 t) p (col 3072 (by decide) j))
    = gate (pre (m ((c : Thread nD τ).loc main_arg0)) (m ((c : Thread nD τ).loc main_arg2)) (Wcat m c) (Ucat m c) (bcat m c) (row t p) (col 0 (by decide) j)) * (m ((c : Thread nD τ).loc main_arg1)) (ix2 (row t p) j)
      + gate (pre (m ((c : Thread nD τ).loc main_arg0)) (m ((c : Thread nD τ).loc main_arg2)) (Wcat m c) (Ucat m c) (bcat m c) (row t p) (col 1024 (by decide) j)) * Ideal.tanh (pre (m ((c : Thread nD τ).loc main_arg0)) (m ((c : Thread nD τ).loc main_arg2)) (Wcat m c) (Ucat m c) (bcat m c) (row t p) (col 3072 (by decide) j))
  rw [band_pre, band_pre, band_pre, c_band]

/-- The band's new hidden rows are the specification's at the band's rows. -/
theorem hidden_rows (c : Dev nD) (t : Fin cfg0.N) (y : S256x1024.Idx) :
    bandHidden (tile m c 0 t) (tile m c 1 t) (tile m c 2 t) (tile m c 3 t) (tile m c 4 t) (tile m c 5 t) y = CellSpec.hidden (m ((c : Thread nD τ).loc main_arg0)) (m ((c : Thread nD τ).loc main_arg2)) (m ((c : Thread nD τ).loc main_arg1)) (Wcat m c) (Ucat m c) (bcat m c) (ix2 (row t (y 0)) (y 1)) := by
  have hc := cell_rows m c t y
  obtain ⟨p, j, rfl⟩ : ∃ (p : Fin 256) (j : Fin 1024), y = ix2 p j := ⟨y 0, y 1, eq_ix2 y⟩
  show gate (bandPre (tile m c 0 t) (tile m c 1 t) (tile m c 3 t) (tile m c 4 t) (tile m c 5 t) p (col 2048 (by decide) j)) * Ideal.tanh (bandCell (tile m c 0 t) (tile m c 1 t) (tile m c 2 t) (tile m c 3 t) (tile m c 4 t) (tile m c 5 t) (ix2 p j))
    = gate (pre (m ((c : Thread nD τ).loc main_arg0)) (m ((c : Thread nD τ).loc main_arg2)) (Wcat m c) (Ucat m c) (bcat m c) (row t p) (col 2048 (by decide) j)) * Ideal.tanh (cell (m ((c : Thread nD τ).loc main_arg0)) (m ((c : Thread nD τ).loc main_arg2)) (m ((c : Thread nD τ).loc main_arg1)) (Wcat m c) (Ucat m c) (bcat m c) (ix2 (row t p) j))
  rw [band_pre, hc]

/-- Point `t` writes back band `t` of the specification's new cell state. -/
theorem cell_band (c : Dev nD) (t : Fin cfg0.N) :
    (ledger m 0 c).flushed 7 t = ((cfg0.win 7).blk t).view.read (Elt Ideal) (cell (m ((c : Thread nD τ).loc main_arg0)) (m ((c : Thread nD τ).loc main_arg2)) (m ((c : Thread nD τ).loc main_arg1)) (Wcat m c) (Ucat m c) (bcat m c)) := by
  show (cfg0.win 7).cut (grid0.coords t) ((ledger m 0 c).after 7 t) = _
  rw [left7, cellTile_eq]
  funext y
  show bandCell (tile m c 0 t) (tile m c 1 t) (tile m c 2 t) (tile m c 3 t) (tile m c 4 t) (tile m c 5 t) y = cell (m ((c : Thread nD τ).loc main_arg0)) (m ((c : Thread nD τ).loc main_arg2)) (m ((c : Thread nD τ).loc main_arg1)) (Wcat m c) (Ucat m c) (bcat m c) (((cfg0.win 7).blk t).view.emb y)
  rw [emb7]
  exact cell_rows m c t y

/-- Point `t` writes back band `t` of the specification's new hidden state. -/
theorem hidden_band (c : Dev nD) (t : Fin cfg0.N) :
    (ledger m 0 c).flushed 6 t = ((cfg0.win 6).blk t).view.read (Elt Ideal) (CellSpec.hidden (m ((c : Thread nD τ).loc main_arg0)) (m ((c : Thread nD τ).loc main_arg2)) (m ((c : Thread nD τ).loc main_arg1)) (Wcat m c) (Ucat m c) (bcat m c)) := by
  show (cfg0.win 6).cut (grid0.coords t) ((ledger m 0 c).after 6 t) = _
  rw [left6, hiddenTile_eq]
  funext y
  show bandHidden (tile m c 0 t) (tile m c 1 t) (tile m c 2 t) (tile m c 3 t) (tile m c 4 t) (tile m c 5 t) y = CellSpec.hidden (m ((c : Thread nD τ).loc main_arg0)) (m ((c : Thread nD τ).loc main_arg2)) (m ((c : Thread nD τ).loc main_arg1)) (Wcat m c) (Ucat m c) (bcat m c) (((cfg0.win 6).blk t).view.emb y)
  rw [emb6]
  exact hidden_rows m c t y

theorem mem_band6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v6_0).slice (win0_6.rect t)).set ↔ _
  rw [View.set_slice_whole, Rect.mem_set_unit]
  exact Iff.rfl

/-- Row `r` lies in band `r / 256`: the sixteen bands tile the 4096 rows. -/
theorem bands_cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have ht : (i 0).val / 256 < cfg0.N := lt_of_lt_of_eq (by omega : (i 0).val / 256 < 16) N_0.symm
  obtain ⟨e0, e1⟩ := moving6 ⟨(i 0).val / 256, ht⟩
  refine ⟨⟨(i 0).val / 256, ht⟩, flush0_6 _, ?_⟩
  rw [mem_band6]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    have e0' : win0_6.index ⟨(i 0).val / 256, ht⟩ (0 : Fin 2) = (i 0).val / 256 := e0
    omega
  | ⟨1, _⟩ =>
    show win0_6.index ⟨(i 0).val / 256, ht⟩ (1 : Fin 2) * 1024 ≤ (i 1).val ∧ (i 1).val < win0_6.index ⟨(i 0).val / 256, ht⟩ (1 : Fin 2) * 1024 + 1024
    omega

theorem mem_band7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v6_1).slice (win0_7.rect t)).set ↔ _
  rw [View.set_slice_whole, Rect.mem_set_unit]
  exact Iff.rfl

/-- Row `r` lies in band `r / 256`: the sixteen bands tile the 4096 rows. -/
theorem bands_cover7 (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  have ht : (i 0).val / 256 < cfg0.N := lt_of_lt_of_eq (by omega : (i 0).val / 256 < 16) N_0.symm
  obtain ⟨e0, e1⟩ := moving7 ⟨(i 0).val / 256, ht⟩
  refine ⟨⟨(i 0).val / 256, ht⟩, flush0_7 _, ?_⟩
  rw [mem_band7]
  intro a
  match a with
  | ⟨0, _⟩ =>
    show win0_7.index ⟨(i 0).val / 256, ht⟩ (0 : Fin 2) * 256 ≤ (i 0).val ∧ (i 0).val < win0_7.index ⟨(i 0).val / 256, ht⟩ (0 : Fin 2) * 256 + 256
    have e0' : win0_7.index ⟨(i 0).val / 256, ht⟩ (0 : Fin 2) = (i 0).val / 256 := e0
    omega
  | ⟨1, _⟩ =>
    show win0_7.index ⟨(i 0).val / 256, ht⟩ (1 : Fin 2) * 1024 ≤ (i 1).val ∧ (i 1).val < win0_7.index ⟨(i 0).val / 256, ht⟩ (1 : Fin 2) * 1024 + 1024
    omega

/-- After the run the first result is the specification's new hidden state of the arguments, -/
theorem hidden_final (c : Dev nD) : (ledger m 0 c).arrAt 6 cfg0.N = CellSpec.hidden (m ((c : Thread nD τ).loc main_arg0)) (m ((c : Thread nD τ).loc main_arg2)) (m ((c : Thread nD τ).loc main_arg1)) (Wcat m c) (Ucat m c) (bcat m c) :=
  (ledger m 0 c).arrAt_eq_of_cover 6 (CellSpec.hidden (m ((c : Thread nD τ).loc main_arg0)) (m ((c : Thread nD τ).loc main_arg2)) (m ((c : Thread nD τ).loc main_arg1)) (Wcat m c) (Ucat m c) (bcat m c)) (fun t _ => hidden_band m c t) bands_cover6

/-- and the second its new cell state. -/
theorem cell_final (c : Dev nD) : (ledger m 0 c).arrAt 7 cfg0.N = cell (m ((c : Thread nD τ).loc main_arg0)) (m ((c : Thread nD τ).loc main_arg2)) (m ((c : Thread nD τ).loc main_arg1)) (Wcat m c) (Ucat m c) (bcat m c) :=
  (ledger m 0 c).arrAt_eq_of_cover 7 (cell (m ((c : Thread nD τ).loc main_arg0)) (m ((c : Thread nD τ).loc main_arg2)) (m ((c : Thread nD τ).loc main_arg1)) (Wcat m c) (Ucat m c) (bcat m c)) (fun t _ => cell_band m c t) bands_cover7

/-- The run of the program with its results named: hidden state, cell state, hidden state again; the arguments unchanged. -/
theorem value_run : θ_run defs (onTc (τ := τ) (main (F := Ideal))) ⟨m, fun _ => 0, ρ⟩ (fun r => ∀ c : Dev nD,
      r.2.mem ((c.tc : Thread nD τ).loc main_v6_0) = CellSpec.hidden (m ((c : Thread nD τ).loc main_arg0)) (m ((c : Thread nD τ).loc main_arg2)) (m ((c : Thread nD τ).loc main_arg1)) (Wcat m c) (Ucat m c) (bcat m c)
      ∧ r.2.mem ((c.tc : Thread nD τ).loc main_v6_1) = cell (m ((c : Thread nD τ).loc main_arg0)) (m ((c : Thread nD τ).loc main_arg2)) (m ((c : Thread nD τ).loc main_arg1)) (Wcat m c) (Ucat m c) (bcat m c)
      ∧ r.2.mem ((c.tc : Thread nD τ).loc main_v6_0) = CellSpec.hidden (m ((c : Thread nD τ).loc main_arg0)) (m ((c : Thread nD τ).loc main_arg2)) (m ((c : Thread nD τ).loc main_arg1)) (Wcat m c) (Ucat m c) (bcat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 6).trans (hidden_final m c), ((h c).1 7).trans (cell_final m c),
      ((h c).1 6).trans (hidden_final m c), arguments_kept m r h c⟩)
    (region_run m ρ)

end Cert.KernelIdeal.CellValue

end
-- ==== Proof.RefCell.lean ====
/-
  The reference computes the specification: its two results, read entry by entry through the generated per-operation
  lemmas, are `CellSpec.hidden` and `CellSpec.cell` of its fifteen arguments — the two 1024 × 4096 matrices and the
  4096-entry bias being the reference's own concatenations, left unopened (the kernel program forms the same ones).
-/
import proofs.«179745_j40956808135044_2_alg».proof.Proof.Gen.ReferenceIdeal.Read
import proofs.«179745_j40956808135044_2_alg».proof.Proof.CellSpec

noncomputable section

open scoped BigOperators

namespace Cert.ReferenceIdeal.RefCell

open Cert.ReferenceIdeal Cert.ReferenceIdeal.Gen Cert.ReferenceIdeal.Read Cert.CellSpec
open Idealize.ShloMosaic Idealize.ShloMosaic.ValueIdx

/-- The slice starting at column 0 of the reference's pre-activation is the specification's, column for column. -/
theorem slice0 (x0 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) (i : S4096x1024.Idx) :
    val_main_v9 (F := Ideal) x0 x2 x3 x4 x5 x6 x7 x8 x9 x10 x11 x12 x13 x14 i = pre x0 x2 (val_main_v0 (F := Ideal) x3 x4 x5 x6) (val_main_v1 (F := Ideal) x7 x8 x9 x10) (val_main_v2 (F := Ideal) x11 x12 x13 x14) (i 0) (col 0 (by decide) (i 1)) := by
  rw [val_main_v9_apply, val_main_v8_apply, val_main_v5_apply, val_main_v3_apply, val_main_v4_apply, val_main_v7_apply, val_main_v6_apply]
  have el : ∀ k : Fin 1024, lidx_main_v3 (idx_main_v9 i) k = ix2 (i 0) k := fun k => funext fun a => Fin.ext (by
    match a with | ⟨0, _⟩ => rfl | ⟨1, _⟩ => rfl)
  have er : ∀ k : Fin 1024, ridx_main_v3 (idx_main_v9 i) k = ix2 k (col 0 (by decide) (i 1)) := fun k => funext fun a => Fin.ext (by
    match a with | ⟨0, _⟩ => rfl | ⟨1, _⟩ => exact (Nat.zero_add _).symm)
  have el' : ∀ k : Fin 1024, lidx_main_v4 (idx_main_v9 i) k = ix2 (i 0) k := fun k => funext fun a => Fin.ext (by
    match a with | ⟨0, _⟩ => rfl | ⟨1, _⟩ => rfl)
  have er' : ∀ k : Fin 1024, ridx_main_v4 (idx_main_v9 i) k = ix2 k (col 0 (by decide) (i 1)) := fun k => funext fun a => Fin.ext (by
    match a with | ⟨0, _⟩ => rfl | ⟨1, _⟩ => exact (Nat.zero_add _).symm)
  have eb : idx_main_v6 (idx_main_v7 (idx_main_v9 i)) = ix1 (col 0 (by decide) (i 1)) := funext fun a => Fin.ext (by
    match a with | ⟨0, _⟩ => exact (Nat.zero_add _).symm)
  simp only [el, er, el', er', eb]
  rfl

/-- The slice starting at column 1024 of the reference's pre-activation is the specification's, column for column. -/
theorem slice1024 (x0 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) (i : S4096x1024.Idx) :
    val_main_v10 (F := Ideal) x0 x2 x3 x4 x5 x6 x7 x8 x9 x10 x11 x12 x13 x14 i = pre x0 x2 (val_main_v0 (F := Ideal) x3 x4 x5 x6) (val_main_v1 (F := Ideal) x7 x8 x9 x10) (val_main_v2 (F := Ideal) x11 x12 x13 x14) (i 0) (col 1024 (by decide) (i 1)) := by
  rw [val_main_v10_apply, val_main_v8_apply, val_main_v5_apply, val_main_v3_apply, val_main_v4_apply, val_main_v7_apply, val_main_v6_apply]
  have el : ∀ k : Fin 1024, lidx_main_v3 (idx_main_v10 i) k = ix2 (i 0) k := fun k => funext fun a => Fin.ext (by
    match a with | ⟨0, _⟩ => rfl | ⟨1, _⟩ => rfl)
  have er : ∀ k : Fin 1024, ridx_main_v3 (idx_main_v10 i) k = ix2 k (col 1024 (by decide) (i 1)) := fun k => funext fun a => Fin.ext (by
    match a with | ⟨0, _⟩ => rfl | ⟨1, _⟩ => rfl)
  have el' : ∀ k : Fin 1024, lidx_main_v4 (idx_main_v10 i) k = ix2 (i 0) k := fun k => funext fun a => Fin.ext (by
    match a with | ⟨0, _⟩ => rfl | ⟨1, _⟩ => rfl)
  have er' : ∀ k : Fin 1024, ridx_main_v4 (idx_main_v10 i) k = ix2 k (col 1024 (by decide) (i 1)) := fun k => funext fun a => Fin.ext (by
    match a with | ⟨0, _⟩ => rfl | ⟨1, _⟩ => rfl)
  have eb : idx_main_v6 (idx_main_v7 (idx_main_v10 i)) = ix1 (col 1024 (by decide) (i 1)) := funext fun a => Fin.ext (by
    match a with | ⟨0, _⟩ => rfl)
  simp only [el, er, el', er', eb]
  rfl

/-- The slice starting at column 2048 of the reference's pre-activation is the specification's, column for column. -/
theorem slice2048 (x0 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) (i : S4096x1024.Idx) :
    val_main_v11 (F := Ideal) x0 x2 x3 x4 x5 x6 x7 x8 x9 x10 x11 x12 x13 x14 i = pre x0 x2 (val_main_v0 (F := Ideal) x3 x4 x5 x6) (val_main_v1 (F := Ideal) x7 x8 x9 x10) (val_main_v2 (F := Ideal) x11 x12 x13 x14) (i 0) (col 2048 (by decide) (i 1)) := by
  rw [val_main_v11_apply, val_main_v8_apply, val_main_v5_apply, val_main_v3_apply, val_main_v4_apply, val_main_v7_apply, val_main_v6_apply]
  have el : ∀ k : Fin 1024, lidx_main_v3 (idx_main_v11 i) k = ix2 (i 0) k := fun k => funext fun a => Fin.ext (by
    match a with | ⟨0, _⟩ => rfl | ⟨1, _⟩ => rfl)
  have er : ∀ k : Fin 1024, ridx_main_v3 (idx_main_v11 i) k = ix2 k (col 2048 (by decide) (i 1)) := fun k => funext fun a => Fin.ext (by
    match a with | ⟨0, _⟩ => rfl | ⟨1, _⟩ => rfl)
  have el' : ∀ k : Fin 1024, lidx_main_v4 (idx_main_v11 i) k = ix2 (i 0) k := fun k => funext fun a => Fin.ext (by
    match a with | ⟨0, _⟩ => rfl | ⟨1, _⟩ => rfl)
  have er' : ∀ k : Fin 1024, ridx_main_v4 (idx_main_v11 i) k = ix2 k (col 2048 (by decide) (i 1)) := fun k => funext fun a => Fin.ext (by
    match a with | ⟨0, _⟩ => rfl | ⟨1, _⟩ => rfl)
  have eb : idx_main_v6 (idx_main_v7 (idx_main_v11 i)) = ix1 (col 2048 (by decide) (i 1)) := funext fun a => Fin.ext (by
    match a with | ⟨0, _⟩ => rfl)
  simp only [el, er, el', er', eb]
  rfl

/-- The slice starting at column 3072 of the reference's pre-activation is the specification's, column for column. -/
theorem slice3072 (x0 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) (i : S4096x1024.Idx) :
    val_main_v12 (F := Ideal) x0 x2 x3 x4 x5 x6 x7 x8 x9 x10 x11 x12 x13 x14 i = pre x0 x2 (val_main_v0 (F := Ideal) x3 x4 x5 x6) (val_main_v1 (F := Ideal) x7 x8 x9 x10) (val_main_v2 (F := Ideal) x11 x12 x13 x14) (i 0) (col 3072 (by decide) (i 1)) := by
  rw [val_main_v12_apply, val_main_v8_apply, val_main_v5_apply, val_main_v3_apply, val_main_v4_apply, val_main_v7_apply, val_main_v6_apply]
  have el : ∀ k : Fin 1024, lidx_main_v3 (idx_main_v12 i) k = ix2 (i 0) k := fun k => funext fun a => Fin.ext (by
    match a with | ⟨0, _⟩ => rfl | ⟨1, _⟩ => rfl)
  have er : ∀ k : Fin 1024, ridx_main_v3 (idx_main_v12 i) k = ix2 k (col 3072 (by decide) (i 1)) := fun k => funext fun a => Fin.ext (by
    match a with | ⟨0, _⟩ => rfl | ⟨1, _⟩ => rfl)
  have el' : ∀ k : Fin 1024, lidx_main_v4 (idx_main_v12 i) k = ix2 (i 0) k := fun k => funext fun a => Fin.ext (by
    match a with | ⟨0, _⟩ => rfl | ⟨1, _⟩ => rfl)
  have er' : ∀ k : Fin 1024, ridx_main_v4 (idx_main_v12 i) k = ix2 k (col 3072 (by decide) (i 1)) := fun k => funext fun a => Fin.ext (by
    match a with | ⟨0, _⟩ => rfl | ⟨1, _⟩ => rfl)
  have eb : idx_main_v6 (idx_main_v7 (idx_main_v12 i)) = ix1 (col 3072 (by decide) (i 1)) := funext fun a => Fin.ext (by
    match a with | ⟨0, _⟩ => rfl)
  simp only [el, er, el', er', eb]
  rfl

/-- The reference's clipped affine map of one slice is the hard sigmoid of that slice. -/
theorem gate_v17 (x0 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) (i : S4096x1024.Idx) :
    val_main_v17 (F := Ideal) x0 x2 x3 x4 x5 x6 x7 x8 x9 x10 x11 x12 x13 x14 i = gate (val_main_v9 (F := Ideal) x0 x2 x3 x4 x5 x6 x7 x8 x9 x10 x11 x12 x13 x14 i) := by
  rw [val_main_v17_apply, val_main_call0_v4_apply, val_main_call0_v3_apply, val_main_cst_2_apply,
    val_main_call0_v2_apply, val_main_call0_v1_apply, val_main_call0_v0_apply, val_main_cst_1_apply,
    val_main_v16_apply, val_main_v15_apply, val_main_cst_0_apply, val_main_v14_apply, val_main_v13_apply, val_main_cst_apply]
  rfl

/-- The reference's clipped affine map of one slice is the hard sigmoid of that slice. -/
theorem gate_v22 (x0 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) (i : S4096x1024.Idx) :
    val_main_v22 (F := Ideal) x0 x2 x3 x4 x5 x6 x7 x8 x9 x10 x11 x12 x13 x14 i = gate (val_main_v10 (F := Ideal) x0 x2 x3 x4 x5 x6 x7 x8 x9 x10 x11 x12 x13 x14 i) := by
  rw [val_main_v22_apply, val_main_call1_v4_apply, val_main_call1_v3_apply, val_main_cst_6_apply,
    val_main_call1_v2_apply, val_main_call1_v1_apply, val_main_call1_v0_apply, val_main_cst_5_apply,
    val_main_v21_apply, val_main_v20_apply, val_main_cst_4_apply, val_main_v19_apply, val_main_v18_apply, val_main_cst_3_apply]
  rfl

/-- The reference's clipped affine map of one slice is the hard sigmoid of that slice. -/
theorem gate_v27 (x0 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) (i : S4096x1024.Idx) :
    val_main_v27 (F := Ideal) x0 x2 x3 x4 x5 x6 x7 x8 x9 x10 x11 x12 x13 x14 i = gate (val_main_v11 (F := Ideal) x0 x2 x3 x4 x5 x6 x7 x8 x9 x10 x11 x12 x13 x14 i) := by
  rw [val_main_v27_apply, val_main_call2_v4_apply, val_main_call2_v3_apply, val_main_cst_10_apply,
    val_main_call2_v2_apply, val_main_call2_v1_apply, val_main_call2_v0_apply, val_main_cst_9_apply,
    val_main_v26_apply, val_main_v25_apply, val_main_cst_8_apply, val_main_v24_apply, val_main_v23_apply, val_main_cst_7_apply]
  rfl

/-- The reference's second result is the new cell state. -/
theorem cell_eq (x0 x1 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) :
    val_main_v31 (F := Ideal) x0 x1 x2 x3 x4 x5 x6 x7 x8 x9 x10 x11 x12 x13 x14 = cell x0 x2 x1 (val_main_v0 (F := Ideal) x3 x4 x5 x6) (val_main_v1 (F := Ideal) x7 x8 x9 x10) (val_main_v2 (F := Ideal) x11 x12 x13 x14) := by
  funext i
  rw [val_main_v31_apply, val_main_v29_apply, val_main_v30_apply, val_main_v28_apply, gate_v17, gate_v22, slice0, slice1024, slice3072]
  rfl

/-- The reference's first (and third) result is the new hidden state. -/
theorem hidden_eq (x0 x1 x2 : (⟨S4096x1024, .f32⟩ : BufTy).Contents (Elt Ideal)) (x3 x4 x5 x6 x7 x8 x9 x10 : (⟨S1024x1024, .f32⟩ : BufTy).Contents (Elt Ideal)) (x11 x12 x13 x14 : (⟨S1024, .f32⟩ : BufTy).Contents (Elt Ideal)) :
    val_main_v33 (F := Ideal) x0 x1 x2 x3 x4 x5 x6 x7 x8 x9 x10 x11 x12 x13 x14 = hidden x0 x2 x1 (val_main_v0 (F := Ideal) x3 x4 x5 x6) (val_main_v1 (F := Ideal) x7 x8 x9 x10) (val_main_v2 (F := Ideal) x11 x12 x13 x14) := by
  funext i
  rw [val_main_v33_apply, val_main_v32_apply, gate_v27, slice2048, cell_eq]
  rfl

end Cert.ReferenceIdeal.RefCell

end
-- ==== Proof.lean ====
/-
  An LSTM cell as one kernel against its array-level reference, over the extended reals.

  Both programs form the same three concatenations (four input-projection matrices side by side, four recurrent matrices
  side by side, four biases end to end) and then compute, entry by entry,
      z = x·W + h0·U + b,   c = σ(z_f)·c0 + σ(z_i)·tanh z_c,   h = σ(z_o)·tanh c,
  σ the hard sigmoid clip(0.2·z + 0.5, 0, 1) and z_f, z_i, z_o, z_c the four 1024-wide column blocks of z. The kernel
  does so on sixteen bands of 256 rows, narrowing `x`, `h0` and the matrices in format first (the identity on exact
  values) and multiplying on the matrix unit into a zero accumulator (the plain sum); the reference on all 4096 rows
  at once. The two sides spell the same sums in the same order with the same four constants, so no algebraic law and
  no finiteness of the inputs is needed: each side is shown to be the one specification (`CellSpec.hidden`,
  `CellSpec.cell`) of the fifteen arguments, and the results (hidden, cell, hidden) are paired by position.

  The three frames: each kernel program runs its host prefix, then the sixteen grid points, each point's body loading
  its six input tiles and overwriting its two output tiles whole, and no argument array is ever written; the
  reference is a straight line of host operations. The idealization rewrote nothing, so `preserves` is `True`.
-/
import proofs.«179745_j40956808135044_2_alg».proof.Defs
import proofs.«179745_j40956808135044_2_alg».proof.Proof.Gen.Kernel
import proofs.«179745_j40956808135044_2_alg».proof.Proof.Gen.KernelIdeal
import proofs.«179745_j40956808135044_2_alg».proof.Proof.Gen.ReferenceIdeal
import proofs.«179745_j40956808135044_2_alg».proof.Proof.Gen.Pre_finite_inputs
import proofs.«179745_j40956808135044_2_alg».proof.Proof.CellRunBits
import proofs.«179745_j40956808135044_2_alg».proof.Proof.CellValue
import proofs.«179745_j40956808135044_2_alg».proof.Proof.RefCell
import Idealize.ShloMosaic.Adequacy
import Idealize.ShloMosaic.Init

noncomputable section

namespace Cert.Proof

open Idealize.ShloMosaic Idealize.SL.Sem

/-- The kernel program as printed runs to the end and keeps its arguments. -/
theorem frame_kernel : Cert.frame_Kernel := fun m ρ _ => Cert.Kernel.Cell.frame m ρ

/-- So does its idealization. -/
theorem frame_kernel_ideal : Cert.frame_KernelIdeal := fun m ρ _ => Cert.KernelIdeal.Cell.frame m ρ

/-- The reference is host operations only: its run, with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization applied no rewrite. -/
theorem preserves : Cert.preserves_Kernel_KernelIdeal := trivial

/-- From memories that agree on the fifteen arguments both programs end with the specification's hidden state, cell
    state and hidden state again: the kernel by its bands, the reference by its operations read entry by entry. -/
theorem algebraic : Cert.algebraic_KernelIdeal_ReferenceIdeal := by
  intro m ρ m' ρ' _ hagree
  refine ⟨_, _, _, Cert.KernelIdeal.CellValue.value_run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  have hh : Cert.ReferenceIdeal.Value.res_main_v33 m' c
      = Cert.CellSpec.hidden (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg1))
          (Cert.KernelIdeal.CellValue.Wcat m c) (Cert.KernelIdeal.CellValue.Ucat m c) (Cert.KernelIdeal.CellValue.bcat m c) := by
    rw [Cert.ReferenceIdeal.Read.val_main_v33_eq, Cert.ReferenceIdeal.RefCell.hidden_eq,
      a0, a1, a2, a3, a4, a5, a6, a7, a8, a9, a10, a11, a12, a13, a14]
    rfl
  have hc : Cert.ReferenceIdeal.Value.res_main_v31 m' c
      = Cert.CellSpec.cell (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg1))
          (Cert.KernelIdeal.CellValue.Wcat m c) (Cert.KernelIdeal.CellValue.Ucat m c) (Cert.KernelIdeal.CellValue.bcat m c) := by
    rw [Cert.ReferenceIdeal.Read.val_main_v31_eq, Cert.ReferenceIdeal.RefCell.cell_eq,
      a0, a1, a2, a3, a4, a5, a6, a7, a8, a9, a10, a11, a12, a13, a14]
    rfl
  exact ⟨(h c).1.trans hh, (h c).2.1.trans hc, (h c).2.2.1.trans hh, (h c).2.2.2⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
